-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S32768x32 : Shape := ⟨2, ![32768, 32]⟩
abbrev S2048x32768 : Shape := ⟨2, ![2048, 32768]⟩
abbrev S32768x2048 : Shape := ⟨2, ![32768, 2048]⟩
abbrev S128x128 : Shape := ⟨2, ![128, 128]⟩
abbrev S128 : Shape := ⟨1, ![128]⟩
abbrev S128x160 : Shape := ⟨2, ![128, 160]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S32768x32 : S_.BroadcastsInDim S32768x32 (![] : Fin 0 → Fin S32768x32.rank)
  reducesTo_S32768x32_S_d0_1 : S32768x32.ReducesTo [0, 1] S_
  bcast_S_S2048x32768 : S_.BroadcastsInDim S2048x32768 (![] : Fin 0 → Fin S2048x32768.rank)
  reducesTo_S2048x32768_S_d0_1 : S2048x32768.ReducesTo [0, 1] S_
  bcast_S_S32768x2048 : S_.BroadcastsInDim S32768x2048 (![] : Fin 0 → Fin S32768x2048.rank)
  reducesTo_S32768x2048_S_d0_1 : S32768x2048.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x160 : S_.BroadcastsInDim S128x160 (![] : Fin 0 → Fin S128x160.rank)
  reducesTo_S128x160_S_d0_1 : S128x160.ReducesTo [0, 1] S_

variable [Facts]

def fn_part2 {F : FTy → Type} [FloatOps F] (main_arg7 : FVec F S128x160 .f32) (main_arg8 : FVec F S128 .f32) (main_arg9 : FVec F S128x128 .f32) (main_v33 : IVec S_ 1) : IVec S_ 1 :=
  let main_v34 : FVec F S128x160 .f32 := Host.absf main_arg7
  let main_cst_12 : FVec F S_ .f32 := constant S_ .f32 0x7F800000#32
  let main_v35 : FVec F S128x160 .f32 := broadcastInDim S128x160 ![] bcast_S_S128x160 main_cst_12
  let main_v36 : IVec S128x160 1 := cmpf .olt main_v34 main_v35
  let main_c_13 : IVec S_ 1 := constantI S_ 1 1#1
  let main_v37 : IVec S_ 1 := (fun x v => Host.reduce IntOp.andi x v reducesTo_S128x160_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128x128 .f32) (main_arg7 : FVec F S128x160 .f32) (main_arg8 : FVec F S128 .f32) (main_arg9 : FVec F S128x128 .f32) (main_v13 : IVec S_ 1) (main_v16 : IVec S32768x2048 1) : IVec S_ 1 :=
  let main_c_5 : IVec S_ 1 := constantI S_ 1 1#1
  let main_v17 : IVec S_ 1 := (fun x v => Host.reduce IntOp.andi x v reducesTo_S32768x2048_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S32768x128 .f32) (main_arg1 : FVec F S32768x32 .f32) (main_arg2 : FVec F S2048x32768 .f32) (main_arg3 : FVec F S32768x2048 .f32) (main_arg4 : FVec F S128x128 .f32) (main_arg5 : FVec F S128 .f32) (main_arg6 : FVec F S128x128 .f32) (main_arg7 : FVec F S128x160 .f32) (main_arg8 : FVec F S128 .f32) (main_arg9 : FVec F S128x128 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S32768x32 .f32 := Host.absf main_arg1
  let main_cst_0 : FVec F S_ .f32 := constant S_ .f32 0x7F800000#32
  let main_v5 : FVec F S32768x32 .f32 := broadcastInDim S32768x32 ![] bcast_S_S32768x32 main_cst_0
  let main_v6 : IVec S32768x32 1 := cmpf .olt main_v4 main_v5
  let main_c_1 : IVec S_ 1 := constantI S_ 1 1#1
  let main_v7 : IVec S_ 1 := (fun x v => Host.reduce IntOp.andi x v reducesTo_S32768x32_S_d0_1 h_S_) main_v6 main_c_1
  let main_v8 : IVec S_ 1 := andi main_v3 main_v7
  let main_v9 : FVec F S2048x32768 .f32 := Host.absf main_arg2
  let main_cst_2 : FVec F S_ .f32 := constant S_ .f32 0x7F800000#32
  let main_v10 : FVec F S2048x32768 .f32 := broadcastInDim S2048x32768 ![] bcast_S_S2048x32768 main_cst_2
  let main_v11 : IVec S2048x32768 1 := cmpf .olt main_v9 main_v10
  let main_c_3 : IVec S_ 1 := constantI S_ 1 1#1
  let main_v12 : IVec S_ 1 := (fun x v => Host.reduce IntOp.andi x v reducesTo_S2048x32768_S_d0_1 h_S_) main_v11 main_c_3
  let main_v13 : IVec S_ 1 := andi main_v8 main_v12
  let main_v14 : FVec F S32768x2048 .f32 := Host.absf main_arg3
  let main_cst_4 : FVec F S_ .f32 := constant S_ .f32 0x7F800000#32
  let main_v15 : FVec F S32768x2048 .f32 := broadcastInDim S32768x2048 ![] bcast_S_S32768x2048 main_cst_4
  let main_v16 : IVec S32768x2048 1 := cmpf .olt main_v14 main_v15
  fn_part1 (F := F) main_arg4 main_arg5 main_arg6 main_arg7 main_arg8 main_arg9 main_v13 main_v16
-- ==== Kernel.lean ====
abbrev S32768x128 : Shape := ⟨2, ![32768, 128]⟩
abbrev S32768x32 : Shape := ⟨2, ![32768, 32]⟩
abbrev S2048x32768 : Shape := ⟨2, ![2048, 32768]⟩
abbrev S32768x2048 : Shape := ⟨2, ![32768, 2048]⟩
abbrev S128x128 : Shape := ⟨2, ![128, 128]⟩
abbrev S128 : Shape := ⟨1, ![128]⟩
abbrev S128x160 : Shape := ⟨2, ![128, 160]⟩
abbrev S1x128 : Shape := ⟨2, ![1, 128]⟩
abbrev S2048x128 : Shape := ⟨2, ![2048, 128]⟩
abbrev S1024x1024 : Shape := ⟨2, ![1024, 1024]⟩
abbrev S1024x128 : Shape := ⟨2, ![1024, 128]⟩
abbrev S128x32 : Shape := ⟨2, ![128, 32]⟩
abbrev S32x128 : Shape := ⟨2, ![32, 128]⟩
abbrev S1024x2048 : Shape := ⟨2, ![1024, 2048]⟩
abbrev S1024x32 : Shape := ⟨2, ![1024, 32]⟩

abbrev nBuf : Space → Nat
  | .hbm => 22
  | .vmem => 26
  | .smem => 0
  | _ => 0

abbrev bufTy : (tb : Table) → Fin (tcTables nBuf tb) → BufTy
  | .hbm, ⟨0, _⟩ => ⟨S32768x128, .f32⟩
  | .hbm, ⟨1, _⟩ => ⟨S32768x32, .f32⟩
  | .hbm, ⟨2, _⟩ => ⟨S2048x32768, .f32⟩
  | .hbm, ⟨3, _⟩ => ⟨S32768x2048, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x160, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S1x128, .f32⟩
  | .hbm, ⟨13, _⟩ => ⟨S32768x128, .f32⟩
  | .hbm, ⟨14, _⟩ => ⟨S2048x128, .f32⟩
  | .hbm, ⟨15, _⟩ => ⟨S128x128, .f32⟩
  | .hbm, ⟨16, _⟩ => ⟨S128x128, .f32⟩
  | .hbm, ⟨17, _⟩ => ⟨S128x32, .f32⟩
  | .hbm, ⟨18, _⟩ => ⟨S32x128, .f32⟩
  | .hbm, ⟨19, _⟩ => ⟨S1x128, .f32⟩
  | .hbm, ⟨20, _⟩ => ⟨S128x128, .f32⟩
  | .hbm, ⟨21, _⟩ => ⟨S32768x128, .f32⟩
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S2048x128, .f32⟩
  | .local _ .vmem, ⟨6, _⟩ => ⟨S2048x128, .f32⟩
  | .local _ .vmem, ⟨7, _⟩ => ⟨S1024x1024, .f32⟩
  | .local _ .vmem, ⟨8, _⟩ => ⟨S1024x1024, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x2048, .f32⟩
  | .local _ .vmem, ⟨14, _⟩ => ⟨S1024x2048, .f32⟩
  | .local _ .vmem, ⟨15, _⟩ => ⟨S2048x128, .f32⟩
  | .local _ .vmem, ⟨16, _⟩ => ⟨S1024x128, .f32⟩
  | .local _ .vmem, ⟨17, _⟩ => ⟨S1024x128, .f32⟩
  | .local _ .vmem, ⟨18, _⟩ => ⟨S1024x32, .f32⟩
  | .local _ .vmem, ⟨19, _⟩ => ⟨S1024x32, .f32⟩
  | .local _ .vmem, ⟨20, _⟩ => ⟨S128x128, .f32⟩
  | .local _ .vmem, ⟨21, _⟩ => ⟨S32x128, .f32⟩
  | .local _ .vmem, ⟨22, _⟩ => ⟨S1x128, .f32⟩
  | .local _ .vmem, ⟨23, _⟩ => ⟨S128x128, .f32⟩
  | .local _ .vmem, ⟨24, _⟩ => ⟨S1024x128, .f32⟩
  | .local _ .vmem, ⟨25, _⟩ => ⟨S1024x128, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg8_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem8_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1024x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S1024x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  transposes_S128x128_S128x128_1_0 : S128x128.Transposes [1, 0] S128x128
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S1024x128_S1024x128_0_0 : ∀ a, (![0, 0] : Fin 2 → Nat) a + S1024x128.size a ≤ S1024x128.size a
  h_S1024x128 : 0 < S1024x128.numel
  inb_S1024x1024_S1024x1024_0_0 : ∀ a, (![0, 0] : Fin 2 → Nat) a + S1024x1024.size a ≤ S1024x1024.size a
  h_S1024x1024 : 0 < S1024x1024.numel
  shapeCasts_S1024x128_S1024x128 : S1024x128.ShapeCasts S1024x128
  slices_S128x160_S128x128_0_0 : S128x160.Slices ![0, 0] S128x128
  slices_S128x160_S128x32_0_128 : S128x160.Slices ![0, 128] S128x32
  transposes_S128x32_S32x128_1_0 : S128x32.Transposes [1, 0] S32x128
  inb_S1024x2048_S1024x2048_0_0 : ∀ a, (![0, 0] : Fin 2 → Nat) a + S1024x2048.size a ≤ S1024x2048.size a
  h_S1024x2048 : 0 < S1024x2048.numel
  shapeCasts_S2048x128_S2048x128 : S2048x128.ShapeCasts S2048x128
  inb_S1024x32_S1024x32_0_0 : ∀ a, (![0, 0] : Fin 2 → Nat) a + S1024x32.size a ≤ S1024x32.size a
  h_S1024x32 : 0 < S1024x32.numel
  inb_S32x128_S32x128_0_0 : ∀ a, (![0, 0] : Fin 2 → Nat) a + S32x128.size a ≤ S32x128.size a
  h_S32x128 : 0 < S32x128.numel
  shapeCasts_S32x128_S32x128 : S32x128.ShapeCasts S32x128
  broadcasts_S1x128_S1024x128 : S1x128.Broadcasts S1024x128
  dot_S2048x128_S128x128_S2048x128_1_0_0_1_n_n_wf : DotDims.WF S2048x128 S128x128 S2048x128 [1] [0] [0] [1] [] []
  dot_S1024x1024_S1024x128_S1024x128_1_0_0_1_n_n_wf : DotDims.WF S1024x1024 S1024x128 S1024x128 [1] [0] [0] [1] [] []
  dot_S1024x2048_S2048x128_S1024x128_1_0_0_1_n_n_wf : DotDims.WF S1024x2048 S2048x128 S1024x128 [1] [0] [0] [1] [] []
  dot_S1024x128_S128x128_S1024x128_1_0_0_1_n_n_wf : DotDims.WF S1024x128 S128x128 S1024x128 [1] [0] [0] [1] [] []
  dot_S1024x32_S32x128_S1024x128_1_0_0_1_n_n_wf : DotDims.WF S1024x32 S32x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S32768x128.size a
  hwx0_0 : ∀ i : grid0.Coords, EltTy.bits .f32 = 32 ∨ (Rect.block (s := S32768x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S32768x128.size a
  hwx0_4 : ∀ i : grid0.Coords, EltTy.bits .f32 = 32 ∨ (Rect.block (s := S32768x128) S2048x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S2048x32768.size a
  hwx1_0 : ∀ i : grid1.Coords, EltTy.bits .f32 = 32 ∨ (Rect.block (s := S2048x32768) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S32768x128.size a
  hwx1_1 : ∀ i : grid1.Coords, EltTy.bits .f32 = 32 ∨ (Rect.block (s := S32768x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S2048x128.size a
  hwx1_2 : ∀ i : grid1.Coords, EltTy.bits .f32 = 32 ∨ (Rect.block (s := S2048x128) S1024x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S32768x2048.size a
  hwx2_0 : ∀ i : grid2.Coords, EltTy.bits .f32 = 32 ∨ (Rect.block (s := S32768x2048) S1024x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S2048x128.size a
  hwx2_1 : ∀ i : grid2.Coords, EltTy.bits .f32 = 32 ∨ (Rect.block (s := S2048x128) S2048x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S32768x128.size a
  hwx2_2 : ∀ i : grid2.Coords, EltTy.bits .f32 = 32 ∨ (Rect.block (s := S32768x128) S1024x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x32.size a ≤ S32768x32.size a
  hwx2_3 : ∀ i : grid2.Coords, EltTy.bits .f32 = 32 ∨ (Rect.block (s := S32768x32) S1024x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x128.size a ≤ S32x128.size a
  hwx2_5 : ∀ i : grid2.Coords, EltTy.bits .f32 = 32 ∨ (Rect.block (s := S32x128) S32x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1024x128.size a ≤ S32768x128.size a
  hwx2_8 : ∀ i : grid2.Coords, EltTy.bits .f32 = 32 ∨ (Rect.block (s := S32768x128) S1024x128.size (cc2_transform_8 i) (hinb2_8 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x32_S32x128_S1024x128_1_0_0_1_n_n : DotDims S1024x32 S32x128 S1024x128 where
  lhsContracting := [1]
  rhsContracting := [0]
  lhsNonContracting := [0]
  rhsNonContracting := [1]
  lhsBatch := []
  rhsBatch := []
  wf := dot_S1024x32_S32x128_S1024x128_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg2) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg3) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S2048x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1024x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg1) S1024x32.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v6) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v8) S32x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v9) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v10) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v11) S1024x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S32768x128 : Shape := ⟨2, ![32768, 128]⟩
abbrev S32768x32 : Shape := ⟨2, ![32768, 32]⟩
abbrev S2048x32768 : Shape := ⟨2, ![2048, 32768]⟩
abbrev S32768x2048 : Shape := ⟨2, ![32768, 2048]⟩
abbrev S128x128 : Shape := ⟨2, ![128, 128]⟩
abbrev S128 : Shape := ⟨1, ![128]⟩
abbrev S128x160 : Shape := ⟨2, ![128, 160]⟩
abbrev S1x128 : Shape := ⟨2, ![1, 128]⟩
abbrev S_ : Shape := ⟨0, ![]⟩
abbrev S2048x128 : Shape := ⟨2, ![2048, 128]⟩
abbrev S32768x160 : Shape := ⟨2, ![32768, 160]⟩
abbrev S160x128 : Shape := ⟨2, ![160, 128]⟩

abbrev nBuf : Space → Nat
  | .hbm => 92
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S32768x32, .f32⟩
  | .hbm, ⟨2, _⟩ => ⟨S2048x32768, .f32⟩
  | .hbm, ⟨3, _⟩ => ⟨S32768x2048, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x160, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S32768x128, .f32⟩
  | .hbm, ⟨12, _⟩ => ⟨S1x128, .f32⟩
  | .hbm, ⟨13, _⟩ => ⟨S32768x128, .f32⟩
  | .hbm, ⟨14, _⟩ => ⟨S32768x128, .f32⟩
  | .hbm, ⟨15, _⟩ => ⟨S32768x128, .f32⟩
  | .hbm, ⟨16, _⟩ => ⟨S_, .f32⟩
  | .hbm, ⟨17, _⟩ => ⟨S32768x128, .f32⟩
  | .hbm, ⟨18, _⟩ => ⟨S32768x128, .f32⟩
  | .hbm, ⟨19, _⟩ => ⟨S32768x128, .f32⟩
  | .hbm, ⟨20, _⟩ => ⟨S32768x128, .f32⟩
  | .hbm, ⟨21, _⟩ => ⟨S32768x128, .i1⟩
  | .hbm, ⟨22, _⟩ => ⟨S32768x128, .f32⟩
  | .hbm, ⟨23, _⟩ => ⟨S32768x128, .f32⟩
  | .hbm, ⟨24, _⟩ => ⟨S32768x128, .f32⟩
  | .hbm, ⟨25, _⟩ => ⟨S32768x128, .f32⟩
  | .hbm, ⟨26, _⟩ => ⟨S32768x128, .f32⟩
  | .hbm, ⟨27, _⟩ => ⟨S32768x128, .f32⟩
  | .hbm, ⟨28, _⟩ => ⟨S32768x128, .f32⟩
  | .hbm, ⟨29, _⟩ => ⟨S32768x128, .f32⟩
  | .hbm, ⟨30, _⟩ => ⟨S32768x128, .f32⟩
  | .hbm, ⟨31, _⟩ => ⟨S128x128, .f32⟩
  | .hbm, ⟨32, _⟩ => ⟨S32768x128, .f32⟩
  | .hbm, ⟨33, _⟩ => ⟨S32768x128, .f32⟩
  | .hbm, ⟨34, _⟩ => ⟨S_, .f32⟩
  | .hbm, ⟨35, _⟩ => ⟨S32768x128, .f32⟩
  | .hbm, ⟨36, _⟩ => ⟨S32768x128, .f32⟩
  | .hbm, ⟨37, _⟩ => ⟨S32768x128, .f32⟩
  | .hbm, ⟨38, _⟩ => ⟨S32768x128, .f32⟩
  | .hbm, ⟨39, _⟩ => ⟨S32768x128, .i1⟩
  | .hbm, ⟨40, _⟩ => ⟨S32768x128, .f32⟩
  | .hbm, ⟨41, _⟩ => ⟨S32768x128, .f32⟩
  | .hbm, ⟨42, _⟩ => ⟨S32768x128, .f32⟩
  | .hbm, ⟨43, _⟩ => ⟨S32768x128, .f32⟩
  | .hbm, ⟨44, _⟩ => ⟨S32768x128, .f32⟩
  | .hbm, ⟨45, _⟩ => ⟨S32768x128, .f32⟩
  | .hbm, ⟨46, _⟩ => ⟨S32768x128, .f32⟩
  | .hbm, ⟨47, _⟩ => ⟨S32768x128, .f32⟩
  | .hbm, ⟨48, _⟩ => ⟨S32768x128, .f32⟩
  | .hbm, ⟨49, _⟩ => ⟨S2048x128, .f32⟩
  | .hbm, ⟨50, _⟩ => ⟨S32768x128, .f32⟩
  | .hbm, ⟨51, _⟩ => ⟨S32768x128, .f32⟩
  | .hbm, ⟨52, _⟩ => ⟨S32768x160, .f32⟩
  | .hbm, ⟨53, _⟩ => ⟨S160x128, .f32⟩
  | .hbm, ⟨54, _⟩ => ⟨S32768x128, .f32⟩
  | .hbm, ⟨55, _⟩ => ⟨S1x128, .f32⟩
  | .hbm, ⟨56, _⟩ => ⟨S32768x128, .f32⟩
  | .hbm, ⟨57, _⟩ => ⟨S32768x128, .f32⟩
  | .hbm, ⟨58, _⟩ => ⟨S32768x128, .f32⟩
  | .hbm, ⟨59, _⟩ => ⟨S_, .f32⟩
  | .hbm, ⟨60, _⟩ => ⟨S32768x128, .f32⟩
  | .hbm, ⟨61, _⟩ => ⟨S32768x128, .f32⟩
  | .hbm, ⟨62, _⟩ => ⟨S32768x128, .f32⟩
  | .hbm, ⟨63, _⟩ => ⟨S32768x128, .f32⟩
  | .hbm, ⟨64, _⟩ => ⟨S32768x128, .i1⟩
  | .hbm, ⟨65, _⟩ => ⟨S32768x128, .f32⟩
  | .hbm, ⟨66, _⟩ => ⟨S32768x128, .f32⟩
  | .hbm, ⟨67, _⟩ => ⟨S32768x128, .f32⟩
  | .hbm, ⟨68, _⟩ => ⟨S32768x128, .f32⟩
  | .hbm, ⟨69, _⟩ => ⟨S32768x128, .f32⟩
  | .hbm, ⟨70, _⟩ => ⟨S32768x128, .f32⟩
  | .hbm, ⟨71, _⟩ => ⟨S32768x128, .f32⟩
  | .hbm, ⟨72, _⟩ => ⟨S32768x128, .f32⟩
  | .hbm, ⟨73, _⟩ => ⟨S32768x128, .f32⟩
  | .hbm, ⟨74, _⟩ => ⟨S128x128, .f32⟩
  | .hbm, ⟨75, _⟩ => ⟨S32768x128, .f32⟩
  | .hbm, ⟨76, _⟩ => ⟨S32768x128, .f32⟩
  | .hbm, ⟨77, _⟩ => ⟨S_, .f32⟩
  | .hbm, ⟨78, _⟩ => ⟨S32768x128, .f32⟩
  | .hbm, ⟨79, _⟩ => ⟨S32768x128, .f32⟩
  | .hbm, ⟨80, _⟩ => ⟨S32768x128, .f32⟩
  | .hbm, ⟨81, _⟩ => ⟨S32768x128, .f32⟩
  | .hbm, ⟨82, _⟩ => ⟨S32768x128, .i1⟩
  | .hbm, ⟨83, _⟩ => ⟨S32768x128, .f32⟩
  | .hbm, ⟨84, _⟩ => ⟨S32768x128, .f32⟩
  | .hbm, ⟨85, _⟩ => ⟨S32768x128, .f32⟩
  | .hbm, ⟨86, _⟩ => ⟨S32768x128, .f32⟩
  | .hbm, ⟨87, _⟩ => ⟨S32768x128, .f32⟩
  | .hbm, ⟨88, _⟩ => ⟨S32768x128, .f32⟩
  | .hbm, ⟨89, _⟩ => ⟨S32768x128, .f32⟩
  | .hbm, ⟨90, _⟩ => ⟨S32768x128, .f32⟩
  | .hbm, ⟨91, _⟩ => ⟨S32768x128, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_call1_v0 : Ref sig .tc := ⟨.hbm, 33, rfl⟩
abbrev main_call1_call0_cst : Ref sig .tc := ⟨.hbm, 34, rfl⟩
abbrev main_call1_call0_v0 : Ref sig .tc := ⟨.hbm, 35, rfl⟩
abbrev main_call1_call0_v1 : Ref sig .tc := ⟨.hbm, 36, rfl⟩
abbrev main_call1_call0_v2 : Ref sig .tc := ⟨.hbm, 37, rfl⟩
abbrev main_call1_call0_v3 : Ref sig .tc := ⟨.hbm, 38, rfl⟩
abbrev main_call1_call0_v4 : Ref sig .tc := ⟨.hbm, 39, rfl⟩
abbrev main_call1_call0_v5 : Ref sig .tc := ⟨.hbm, 40, rfl⟩
abbrev main_call1_call0_v6 : Ref sig .tc := ⟨.hbm, 41, rfl⟩
abbrev main_call1_call0_v7 : Ref sig .tc := ⟨.hbm, 42, rfl⟩
abbrev main_call1_call0_v8 : Ref sig .tc := ⟨.hbm, 43, rfl⟩
abbrev main_call1_call0_v9 : Ref sig .tc := ⟨.hbm, 44, rfl⟩
abbrev main_call1_call0_v10 : Ref sig .tc := ⟨.hbm, 45, rfl⟩
abbrev main_call1_call0_v11 : Ref sig .tc := ⟨.hbm, 46, rfl⟩
abbrev main_call1_v1 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_call2_v0 : Ref sig .tc := ⟨.hbm, 58, rfl⟩
abbrev main_call2_call0_cst : Ref sig .tc := ⟨.hbm, 59, rfl⟩
abbrev main_call2_call0_v0 : Ref sig .tc := ⟨.hbm, 60, rfl⟩
abbrev main_call2_call0_v1 : Ref sig .tc := ⟨.hbm, 61, rfl⟩
abbrev main_call2_call0_v2 : Ref sig .tc := ⟨.hbm, 62, rfl⟩
abbrev main_call2_call0_v3 : Ref sig .tc := ⟨.hbm, 63, rfl⟩
abbrev main_call2_call0_v4 : Ref sig .tc := ⟨.hbm, 64, rfl⟩
abbrev main_call2_call0_v5 : Ref sig .tc := ⟨.hbm, 65, rfl⟩
abbrev main_call2_call0_v6 : Ref sig .tc := ⟨.hbm, 66, rfl⟩
abbrev main_call2_call0_v7 : Ref sig .tc := ⟨.hbm, 67, rfl⟩
abbrev main_call2_call0_v8 : Ref sig .tc := ⟨.hbm, 68, rfl⟩
abbrev main_call2_call0_v9 : Ref sig .tc := ⟨.hbm, 69, rfl⟩
abbrev main_call2_call0_v10 : Ref sig .tc := ⟨.hbm, 70, rfl⟩
abbrev main_call2_call0_v11 : Ref sig .tc := ⟨.hbm, 71, rfl⟩
abbrev main_call2_v1 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_call3_v0 : Ref sig .tc := ⟨.hbm, 76, rfl⟩
abbrev main_call3_call0_cst : Ref sig .tc := ⟨.hbm, 77, rfl⟩
abbrev main_call3_call0_v0 : Ref sig .tc := ⟨.hbm, 78, rfl⟩
abbrev main_call3_call0_v1 : Ref sig .tc := ⟨.hbm, 79, rfl⟩
abbrev main_call3_call0_v2 : Ref sig .tc := ⟨.hbm, 80, rfl⟩
abbrev main_call3_call0_v3 : Ref sig .tc := ⟨.hbm, 81, rfl⟩
abbrev main_call3_call0_v4 : Ref sig .tc := ⟨.hbm, 82, rfl⟩
abbrev main_call3_call0_v5 : Ref sig .tc := ⟨.hbm, 83, rfl⟩
abbrev main_call3_call0_v6 : Ref sig .tc := ⟨.hbm, 84, rfl⟩
abbrev main_call3_call0_v7 : Ref sig .tc := ⟨.hbm, 85, rfl⟩
abbrev main_call3_call0_v8 : Ref sig .tc := ⟨.hbm, 86, rfl⟩
abbrev main_call3_call0_v9 : Ref sig .tc := ⟨.hbm, 87, rfl⟩
abbrev main_call3_call0_v10 : Ref sig .tc := ⟨.hbm, 88, rfl⟩
abbrev main_call3_call0_v11 : Ref sig .tc := ⟨.hbm, 89, rfl⟩
abbrev main_call3_v1 : Ref sig .tc := ⟨.hbm, 90, rfl⟩
abbrev main_v21 : Ref sig .tc := ⟨.hbm, 91, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S_S32768x128 : S_.BroadcastsInDim S32768x128 (![] : Fin 0 → Fin S32768x128.rank)
  concatenates_S32768x128_S32768x32_S32768x160_d1 : Shape.Concatenates [S32768x128, S32768x32] S32768x160 1
  transposes_S128x160_S160x128_1_0 : S128x160.Transposes [1, 0] S160x128
  dot_S32768x128_S128x128_S32768x128_1_0_0_1_n_n_wf : DotDims.WF S32768x128 S128x128 S32768x128 [1] [0] [0] [1] [] []
  dot_S2048x32768_S32768x128_S2048x128_1_0_0_1_n_n_wf : DotDims.WF S2048x32768 S32768x128 S2048x128 [1] [0] [0] [1] [] []
  dot_S32768x2048_S2048x128_S32768x128_1_0_0_1_n_n_wf : DotDims.WF S32768x2048 S2048x128 S32768x128 [1] [0] [0] [1] [] []
  dot_S32768x160_S160x128_S32768x128_1_0_0_1_n_n_wf : DotDims.WF S32768x160 S160x128 S32768x128 [1] [0] [0] [1] [] []

variable [Facts₀]

def dot_S32768x128_S128x128_S32768x128_1_0_0_1_n_n : DotDims S32768x128 S128x128 S32768x128 where
  lhsContracting := [1]
  rhsContracting := [0]
  lhsNonContracting := [0]
  rhsNonContracting := [1]
  lhsBatch := []
  rhsBatch := []
  wf := dot_S32768x128_S128x128_S32768x128_1_0_0_1_n_n_wf
def dot_S2048x32768_S32768x128_S2048x128_1_0_0_1_n_n : DotDims S2048x32768 S32768x128 S2048x128 where
  lhsContracting := [1]
  rhsContracting := [0]
  lhsNonContracting := [0]
  rhsNonContracting := [1]
  lhsBatch := []
  rhsBatch := []
  wf := dot_S2048x32768_S32768x128_S2048x128_1_0_0_1_n_n_wf
def dot_S32768x2048_S2048x128_S32768x128_1_0_0_1_n_n : DotDims S32768x2048 S2048x128 S32768x128 where
  lhsContracting := [1]
  rhsContracting := [0]
  lhsNonContracting := [0]
  rhsNonContracting := [1]
  lhsBatch := []
  rhsBatch := []
  wf := dot_S32768x2048_S2048x128_S32768x128_1_0_0_1_n_n_wf
def dot_S32768x160_S160x128_S32768x128_1_0_0_1_n_n : DotDims S32768x160 S160x128 S32768x128 where
  lhsContracting := [1]
  rhsContracting := [0]
  lhsNonContracting := [0]
  rhsNonContracting := [1]
  lhsBatch := []
  rhsBatch := []
  wf := dot_S32768x160_S160x128_S32768x128_1_0_0_1_n_n_wf

class Facts : Prop extends Facts₀ where

variable [Facts]
-- ==== Proof.KRun.lean ====
/-
  The kernel program's run with its result named. The three launches and the host operations between them are run as
  five segments; every buffer that outlives a launch ends at the contents of the last segment boundary, so the result
  buffer ends at that boundary's contents too, beside the ten argument arrays, which end as launched.
-/
import proofs.«111909_j6468220748479_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the arguments as launched. -/
theorem run : θ_run defs (onTc (τ := τ) (main (F := F))) ⟨m, fun _ => 0, ρ⟩ (fun r => ∀ c : Dev nD,
      r.2.mem ((c.tc : Thread nD τ).loc main_v11) = W5 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v11 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.KRun

end
-- ==== Proof.Spec.lean ====
/-
  The specification. One message-passing layer on a bipartite graph with 32768 edges and 2048 nodes, entry by entry
  over the extended reals:

    msg  e c = ls (∑ k, ls ((∑ j, state e j · W1m k j) + b1m k) · W2m c k)          the edge message, a two-layer perceptron
    node n c = ∑ e, mask n e · msg e c                                            the messages gathered at each node
    nbr  e c = (∑ n, maskT e n · node n c) − msg e c                              scattered back to the edges, the edge's own removed
    hid2 e j = (∑ k<128, nbr e k · W1a j k) + (∑ k<32, feat e k · W1a j (128+k)) + b1a j
    out  e c = ls (∑ k, ls (hid2 e k) · W2a c k)

  where ls x = −(max (−x) 0 + log (1 + exp (−|−x|))) is the logarithm of the logistic function, written as minus the
  softplus of −x. Both programs spell ls through a guard "if d ≠ d" that never fires on the extended reals, one with
  0 − x for the negations and one with −x: the two spellings are this ls (ls_minus, ls_neg).
-/
import Idealize.ShloMosaic.PureOps.Ideal.Laws
import Idealize.ShloMosaic.Lib.ValueIdx

noncomputable section

namespace Cert.Spec

open Idealize.ShloMosaic Idealize.ShloMosaic.ValueIdx
open scoped BigOperators

/-- A matrix of extended reals with literal extents. -/
abbrev Mat (a b : ℕ) : Type := (⟨2, ![a, b]⟩ : Shape).Idx → EReal
/-- A vector of extended reals with a literal extent. -/
abbrev Row (a : ℕ) : Type := (⟨1, ![a]⟩ : Shape).Idx → EReal

/-- log σ(x), as minus the softplus of −x. -/
def ls (x : EReal) : EReal := -(max (-x) 0 + Ideal.log1p (Ideal.exp (-(max (-x) (-(-x))))))

/-- The comparison "d ≠ d" is false on the extended reals, in its ordered reading … -/
theorem cmp_one_self (d : EReal) : Ideal.cmp .one d d = 0#1 := by simp [Ideal.cmp]
/-- … and in its unordered one. -/
theorem cmp_une_self (d : EReal) : Ideal.cmp .une d d = 0#1 := by simp [Ideal.cmp]

/-- The spelling with negations written −x. -/
def lsNeg (x : EReal) : EReal :=
  -(Scalar.select (Ideal.cmp .une (-x - 0) (-x - 0)) (-x + 0)
      (max (-x) 0 + Ideal.log1p (Ideal.exp (-(max (-x - 0) (-(-x - 0)))))))

/-- The spelling with negations written 0 − x. -/
def lsMinus (x : EReal) : EReal :=
  0 - Scalar.select (Ideal.cmp .one (0 - x - 0) (0 - x - 0)) (0 - x + 0)
      (max (0 - x) 0 + Ideal.log1p (Ideal.exp (0 - max (0 - x - 0) (-(0 - x - 0)))))

theorem ls_neg (x : EReal) : lsNeg x = ls x := by
  unfold lsNeg ls
  rw [cmp_une_self, select_zero, sub_zero]

theorem ls_minus (x : EReal) : lsMinus x = ls x := by
  unfold lsMinus ls
  rw [cmp_one_self, select_zero, zero_sub, sub_zero, zero_sub, zero_sub]

section Layer

variable (state : Mat 32768 128) (feat : Mat 32768 32) (mask : Mat 2048 32768) (maskT : Mat 32768 2048)
  (W1m : Mat 128 128) (b1m : Row 128) (W2m : Mat 128 128) (W1a : Mat 128 160) (b1a : Row 128) (W2a : Mat 128 128)

/-- The message perceptron's hidden pre-activation of edge e, unit k. -/
def hid (e : Fin 32768) (k : Fin 128) : EReal := (∑ j : Fin 128, state (ix2 e j) * W1m (ix2 k j)) + b1m (ix1 k)

/-- The message of edge e, channel c. -/
def msg (e : Fin 32768) (c : Fin 128) : EReal := ls (∑ k : Fin 128, ls (hid state W1m b1m e k) * W2m (ix2 c k))

/-- The messages gathered at node n. -/
def node (n : Fin 2048) (c : Fin 128) : EReal := ∑ e : Fin 32768, mask (ix2 n e) * msg state W1m b1m W2m e c

/-- What edge e receives from its nodes, its own message removed. -/
def nbr (e : Fin 32768) (c : Fin 128) : EReal :=
  (∑ n : Fin 2048, maskT (ix2 e n) * node state mask W1m b1m W2m n c) - msg state W1m b1m W2m e c

/-- The aggregation perceptron's hidden pre-activation: the received part against the first 128 columns of W1a, the
    edge's features against the last 32. -/
def hid2 (e : Fin 32768) (j : Fin 128) : EReal :=
  ((∑ k : Fin 128, nbr state mask maskT W1m b1m W2m e k * W1a (ix2 j (⟨k.val, by have := k.isLt; omega⟩ : Fin 160)))
    + ∑ k : Fin 32, feat (ix2 e k) * W1a (ix2 j (⟨128 + k.val, by have := k.isLt; omega⟩ : Fin 160)))
  + b1a (ix1 j)

/-- The layer's output. -/
def out (e : Fin 32768) (c : Fin 128) : EReal :=
  ls (∑ k : Fin 128, ls (hid2 state feat mask maskT W1m b1m W2m W1a b1a e k) * W2a (ix2 c k))

/-- The output as an array. -/
def outArr : Mat 32768 128 := fun i => out state feat mask maskT W1m b1m W2m W1a b1a W2a (i 0) (i 1)

/-- The messages as an array. -/
def msgArr : Mat 32768 128 := fun i => msg state W1m b1m W2m (i 0) (i 1)

/-- The node sums as an array. -/
def nodeArr : Mat 2048 128 := fun i => node state mask W1m b1m W2m (i 0) (i 1)

end Layer

end Cert.Spec

end
-- ==== Proof.LibPlainMatmul.lean ====
/-
  A plain matrix product read at an entry.

  For the dimension numbers "contract the left operand's second axis with the right operand's first" an `[M, K]` by
  `[K, N]` product, accumulated into a zero array, has at row `p` and column `c` the entry
  `∑ k, W p k · X k c` over the extended reals: the contraction position is its one coordinate `k`, the left operand is
  read at `(p, k)` and the right one at `(k, c)`. The same reading holds of a host `dot_general` with those dimension
  numbers, which has no accumulator.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

variable (M K N : ℕ)

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction position. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction positions, re-indexed by the one coordinate. -/
theorem sum_contr {φ₁ φ₂ : FTy} (W : FVec Ideal ⟨2, ![M, K]⟩ φ₁) (X : FVec Ideal ⟨2, ![K, N]⟩ φ₂) (p : Fin M) (c : Fin N) :
    (∑ q : (DotDims.plain M K N).contr.Idx,
        W ((DotDims.plain M K N).lhsIdx (ix2 p c) q) * X ((DotDims.plain M K N).rhsIdx (ix2 p c) q))
      = ∑ k : Fin K, W (ix2 p k) * X (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p c) ((contrEquiv1 (DotDims.plain M K N) K rfl rfl).symm k) = ix2 k c :=
    funext fun a => Fin.ext (by
      match a with
      | ⟨0, _⟩ => exact (rhs_row M K N _ _).trans hk
      | ⟨1, _⟩ => exact rhs_col M K N _ _)
  rw [el, er]

/-- A kernel's matrix product into a zero accumulator, at an entry. -/
theorem matmul_zero_apply {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, W (ix2 p k) * X (ix2 k c) := by
  simp only [matmul]
  rw [Ideal.matmul_constant_zero_apply]
  exact sum_contr M K N W X p c

/-- The same with each product's factors swapped: the form in which a product computed in a transposed layout
    (`W · Xᵀ` laid out as features by batch) meets the row-major product `X · Wᵀ`. -/
theorem matmul_zero_apply_comm {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, X (ix2 k c) * W (ix2 p k) := by
  rw [matmul_zero_apply]
  exact Finset.sum_congr rfl fun k _ => mul_comm _ _

/-- A host product, at an entry. -/
theorem dotGeneral_apply {φ₁ φ₂ : FTy} (prec : Option ContractPrecision) (W : FVec Ideal ⟨2, ![M, K]⟩ φ₁)
    (X : FVec Ideal ⟨2, ![K, N]⟩ φ₂) (p : Fin M) (c : Fin N) :
    Host.dotGeneral (DotDims.plain M K N) prec W X (ix2 p c) = ∑ k : Fin K, W (ix2 p k) * X (ix2 k c) := by
  simp only [Host.dotGeneral]
  rw [Ideal.dotGeneral_apply]
  exact sum_contr M K N W X p c

end Cert.LibPlainMatmul

end
-- ==== Proof.KBody0.lean ====
/-
  The first launch's body, at the extended reals. One block of 2048 edges: the block of the state array x0, the
  transposed first weight matrix x1 (128 by 128), the first bias as a row x2 (1 by 128) and the transposed second
  weight matrix x3 give, at row p and channel c,

      ls (∑ k, ls ((∑ j, x0 p j · x1 j k) + x2 0 k) · x3 k c),

  the edge message of the block's row p. The body spells ls with 0 − x for every negation and a guard "d ≠ d"
  (ordered reading) that never fires.
-/
import proofs.«111909_j6468220748479_2_alg».proof.Proof.Gen.KernelIdeal.Skeleton
import proofs.«111909_j6468220748479_2_alg».proof.Proof.Spec
import proofs.«111909_j6468220748479_2_alg».proof.Proof.LibPlainMatmul
import Idealize.ShloMosaic.Lib.ValueLayout
import Idealize.ShloMosaic.Lib.Pipeline.Value
import Idealize.ShloMosaic.PureOps.Ideal.Laws

noncomputable section

namespace Cert.KernelIdeal.KBody

open Idealize.ShloMosaic Idealize.ShloMosaic.ValueIdx
open Cert.KernelIdeal Cert.KernelIdeal.Gen
open scoped BigOperators

/-- The body's spelling of ls on an array: every negation a subtraction from the zero array. -/
def lsV {s : Shape} (x : FVec Ideal s .f32) : FVec Ideal s .f32 :=
  subf (broadcast s (Scalar.ofBits .f32 0x00000000#32))
    (select
      (cmpf .one (subf (subf (broadcast s (Scalar.ofBits .f32 0x00000000#32)) x) (broadcast s (Scalar.ofBits .f32 0x00000000#32)))
        (subf (subf (broadcast s (Scalar.ofBits .f32 0x00000000#32)) x) (broadcast s (Scalar.ofBits .f32 0x00000000#32))))
      (addf (subf (broadcast s (Scalar.ofBits .f32 0x00000000#32)) x) (broadcast s (Scalar.ofBits .f32 0x00000000#32)))
      (addf (maximumf (subf (broadcast s (Scalar.ofBits .f32 0x00000000#32)) x) (broadcast s (Scalar.ofBits .f32 0x00000000#32)))
        (log1p (exp (subf (broadcast s (Scalar.ofBits .f32 0x00000000#32))
          (absf (subf (subf (broadcast s (Scalar.ofBits .f32 0x00000000#32)) x) (broadcast s (Scalar.ofBits .f32 0x00000000#32)))))))))

/-- The scalar zero word is the real 0. -/
theorem zero_word : (Scalar.ofBits (F := Ideal) .f32 0x00000000#32 : EReal) = 0 := Ideal.ofBits_zero_f32

/-- Entry by entry that spelling is ls. -/
theorem lsV_apply {s : Shape} (x : FVec Ideal s .f32) (i : s.Idx) : lsV x i = Spec.ls (x i) := by
  show (Scalar.ofBits (F := Ideal) .f32 0x00000000#32 : EReal)
      - Scalar.select (Ideal.cmp .one
          ((Scalar.ofBits (F := Ideal) .f32 0x00000000#32 : EReal) - x i - (Scalar.ofBits (F := Ideal) .f32 0x00000000#32 : EReal))
          ((Scalar.ofBits (F := Ideal) .f32 0x00000000#32 : EReal) - x i - (Scalar.ofBits (F := Ideal) .f32 0x00000000#32 : EReal)))
        ((Scalar.ofBits (F := Ideal) .f32 0x00000000#32 : EReal) - x i + (Scalar.ofBits (F := Ideal) .f32 0x00000000#32 : EReal))
        (max ((Scalar.ofBits (F := Ideal) .f32 0x00000000#32 : EReal) - x i) (Scalar.ofBits (F := Ideal) .f32 0x00000000#32 : EReal)
          + Ideal.log1p (Ideal.exp ((Scalar.ofBits (F := Ideal) .f32 0x00000000#32 : EReal)
              - max ((Scalar.ofBits (F := Ideal) .f32 0x00000000#32 : EReal) - x i - (Scalar.ofBits (F := Ideal) .f32 0x00000000#32 : EReal))
                  (-((Scalar.ofBits (F := Ideal) .f32 0x00000000#32 : EReal) - x i - (Scalar.ofBits (F := Ideal) .f32 0x00000000#32 : EReal))))))
    = Spec.ls (x i)
  rw [zero_word]
  exact Spec.ls_minus (x i)

/-- The program's record for a 2048 by 128 times 128 by 128 product is the plain one. -/
theorem dot0_plain : dot_S2048x128_S128x128_S2048x128_1_0_0_1_n_n = DotDims.plain 2048 128 128 := rfl

/-- The body of the first launch as one term of its four loaded blocks. -/
def body0 (x0 : Vec Ideal S2048x128 .f32) (x1 : Vec Ideal S128x128 .f32) (x2 : Vec Ideal S1x128 .f32)
    (x3 : Vec Ideal S128x128 .f32) : FVec Ideal S2048x128 .f32 :=
  lsV (matmul dot_S2048x128_S128x128_S2048x128_1_0_0_1_n_n none
    (truncf .bf16 (lsV (addf
      (matmul dot_S2048x128_S128x128_S2048x128_1_0_0_1_n_n none (truncf .bf16 x0 bitsLt_bf16_f32)
        (truncf .bf16 (shapeCast S128x128 x1 shapeCasts_S128x128_S128x128) bitsLt_bf16_f32)
        (constant S2048x128 .f32 0x00000000#32))
      (broadcastTo S2048x128 (shapeCast S1x128 x2 shapeCasts_S1x128_S1x128) broadcasts_S1x128_S2048x128))) bitsLt_bf16_f32)
    (truncf .bf16 (shapeCast S128x128 x3 shapeCasts_S128x128_S128x128) bitsLt_bf16_f32)
    (constant S2048x128 .f32 0x00000000#32))

/-- The stored value, assembled from the skeleton's pieces, is that term. -/
theorem pay0_eq (x0 : Vec Ideal S2048x128 .f32) (x1 : Vec Ideal S128x128 .f32) (x2 : Vec Ideal S1x128 .f32)
    (x3 : Vec Ideal S128x128 .f32) :
    k0_pay1 (k0_pay3 x0 x1 x2 x3) (k0_pay5 x0 x1 x2 x3) (k0_pay6 x0 x1 x2 x3) (k0_pay7 x0 x1 x2 x3) = body0 x0 x1 x2 x3 := rfl

/-- The term at row p, channel c. -/
theorem body0_apply (x0 : Vec Ideal S2048x128 .f32) (x1 : Vec Ideal S128x128 .f32) (x2 : Vec Ideal S1x128 .f32)
    (x3 : Vec Ideal S128x128 .f32) (p : Fin 2048) (c : Fin 128) :
    body0 x0 x1 x2 x3 (ix2 p c)
      = Spec.ls (∑ k : Fin 128, Spec.ls ((∑ j : Fin 128, x0 (ix2 p j) * x1 (ix2 j k)) + x2 (ix2 0 k)) * x3 (ix2 k c)) := by
  unfold body0
  rw [lsV_apply, dot0_plain, LibPlainMatmul.matmul_zero_apply]
  refine congrArg Spec.ls (Finset.sum_congr rfl fun k _ => ?_)
  rw [truncf_apply, truncf_apply, lsV_apply, addf_apply, LibPlainMatmul.matmul_zero_apply, shapeCast_self, shapeCast_self,
    shapeCast_self, broadcastTo_1b_ab_apply]
  rfl

end Cert.KernelIdeal.KBody

end
-- ==== Proof.LibBroadcasts.lean ====
/-
  The small broadcasts and the one reshape the graph convolution's host arithmetic uses, read at an index, for any
  sizes: a vector as a one-column matrix, a one-column matrix spread over C columns, a scalar spread over any shape, a
  vector as a one-row matrix (as a broadcast and as a reshape), a one-row matrix spread over N rows.
-/
import Idealize.ShloMosaic.Lib.Pipeline.Value
import Idealize.ShloMosaic.Lib.ValueIdx

noncomputable section

namespace Cert.LibBroadcasts

open Idealize.ShloMosaic Idealize.ShloMosaic.ValueIdx

variable {α : Type}

/-- A [K] vector broadcast to a [K, 1] column, read at (e, 0), is the vector at e. -/
theorem column_apply {K : Nat} (h : (⟨1, ![K]⟩ : Shape).BroadcastsInDim ⟨2, ![K, 1]⟩ ![0])
    (y : (⟨1, ![K]⟩ : Shape).Idx → α) (e : Fin K) (z : Fin 1) :
    broadcastInDim ⟨2, ![K, 1]⟩ ![0] h y (ix2 e z) = y (ix1 e) :=
  broadcastInDim_apply _ h y _ _ (fun a => match a with
    | ⟨0, _⟩ => by
      have := e.isLt
      show e.val = if K = 1 then 0 else e.val
      split <;> omega)

/-- A [K, 1] column broadcast over C columns, read at (e, k), is the column at (e, 0). -/
theorem spread_apply {K C : Nat} (h : (⟨2, ![K, 1]⟩ : Shape).BroadcastsInDim ⟨2, ![K, C]⟩ ![0, 1])
    (y : (⟨2, ![K, 1]⟩ : Shape).Idx → α) (e : Fin K) (k : Fin C) :
    broadcastInDim ⟨2, ![K, C]⟩ ![0, 1] h y (ix2 e k) = y (ix2 e 0) :=
  broadcastInDim_apply _ h y _ _ (fun a => match a with
    | ⟨0, _⟩ => by
      have := e.isLt
      show e.val = if K = 1 then 0 else e.val
      split <;> omega
    | ⟨1, _⟩ => by show 0 = if (1 : Nat) = 1 then 0 else k.val; rw [if_pos rfl])

/-- A scalar broadcast to any shape is the scalar everywhere. -/
theorem scalar_apply {t : Shape} (h : (⟨0, ![]⟩ : Shape).BroadcastsInDim t ![])
    (y : (⟨0, ![]⟩ : Shape).Idx → α) (j : t.Idx) :
    broadcastInDim t ![] h y j = y (fun a => a.elim0) :=
  broadcastInDim_apply _ h y _ _ (fun a => a.elim0)

/-- A [C] vector broadcast to a [1, C] row, read at (0, k), is the vector at k. -/
theorem row_apply {C : Nat} (h : (⟨1, ![C]⟩ : Shape).BroadcastsInDim ⟨2, ![1, C]⟩ ![1])
    (y : (⟨1, ![C]⟩ : Shape).Idx → α) (z : Fin 1) (k : Fin C) :
    broadcastInDim ⟨2, ![1, C]⟩ ![1] h y (ix2 z k) = y (ix1 k) :=
  broadcastInDim_apply _ h y _ _ (fun a => match a with
    | ⟨0, _⟩ => by
      have := k.isLt
      show k.val = if C = 1 then 0 else k.val
      split <;> omega)

/-- A [1, C] row broadcast over N rows, read at (i, k), is the row at (0, k). -/
theorem rows_apply {N C : Nat} (h : (⟨2, ![1, C]⟩ : Shape).BroadcastsInDim ⟨2, ![N, C]⟩ ![0, 1])
    (y : (⟨2, ![1, C]⟩ : Shape).Idx → α) (i : Fin N) (k : Fin C) :
    broadcastInDim ⟨2, ![N, C]⟩ ![0, 1] h y (ix2 i k) = y (ix2 0 k) :=
  broadcastInDim_apply _ h y _ _ (fun a => match a with
    | ⟨0, _⟩ => by show 0 = if (1 : Nat) = 1 then 0 else i.val; rw [if_pos rfl]
    | ⟨1, _⟩ => by
      have := k.isLt
      show k.val = if C = 1 then 0 else k.val
      split <;> omega)

/-- A [C] vector reshaped to a [1, C] row, read at (0, k), is the vector at k. -/
theorem row_cast_apply {C : Nat} (h : (⟨1, ![C]⟩ : Shape).ShapeCasts ⟨2, ![1, C]⟩)
    (y : (⟨1, ![C]⟩ : Shape).Idx → α) (z : Fin 1) (k : Fin C) :
    shapeCast ⟨2, ![1, C]⟩ y h (ix2 z k) = y (ix1 k) :=
  shapeCast_apply y h (ix2 z k) (ix1 k) (by
    rewrite [Shape.rowMajor_val_two, Shape.rowMajor_val_one]
    have := z.isLt
    show k.val = z.val * C + k.val
    have hz : z.val = 0 := by omega
    rw [hz]; omega)

end Cert.LibBroadcasts

end
-- ==== Proof.K0.lean ====
/-
  The first launch, from blocks to the array. The launch runs its body at 16 points; point t reads rows 2048·t … 2048·t + 2047
  of the state, the two weight matrices (transposed before the launch) and the first bias (as a one-row matrix), whole,
  and writes rows 2048·t … 2048·t + 2047 of the result. The body's value at row p, channel c is the edge message of edge
  2048·t + p, so each point writes back its block of the specification's messages array; the 16 blocks tile the array, so the
  result buffer ends holding the messages array.
-/
import proofs.«111909_j6468220748479_2_alg».proof.Proof.Gen.KernelIdeal.Frame
import proofs.«111909_j6468220748479_2_alg».proof.Proof.KBody0
import proofs.«111909_j6468220748479_2_alg».proof.Proof.Spec
import proofs.«111909_j6468220748479_2_alg».proof.Proof.LibBroadcasts
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.K0

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen
open scoped BigOperators

variable (m : (ℓ : Loc nD τ sig) → Buf (Elt Ideal) ℓ) (ρ : Dev nD → PrngReg)

/-- The zero offsets, however spelt. -/
theorem zero_offsets : (![0, 0] : Fin 2 → Nat) = fun _ => 0 := funext fun a => by fin_cases a <;> rfl

/-- The block index of each window at each of the 16 points: the state's and the result's blocks move with the point along the rows,
    the two weight matrices and the bias row are whole. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The state array is as launched when the first launch starts: no host operation before it writes it. -/
theorem entry_state (c : Dev nD) : V1 m ρ c main_arg0 = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- The first weight matrix reaches the launch transposed … -/
theorem entry_w1T (c : Dev nD) : (V1 m ρ c main_v0 : S128x128.Idx → EReal)
    = transpose S128x128 [1, 0] (m ((c : Thread nD τ).loc main_arg4)) transposes_S128x128_S128x128_1_0 := by
  dsimp only [Gen.V1, Gen.W1, Gen.hostOps0]; after_results

/-- … so does the second … -/
theorem entry_w2T (c : Dev nD) : (V1 m ρ c main_v1 : S128x128.Idx → EReal)
    = transpose S128x128 [1, 0] (m ((c : Thread nD τ).loc main_arg6)) transposes_S128x128_S128x128_1_0 := by
  dsimp only [Gen.V1, Gen.W1, Gen.hostOps0]; after_results

/-- … and the first bias as a one-row matrix. -/
theorem entry_bias_row (c : Dev nD) : (V1 m ρ c main_v2 : S1x128.Idx → EReal)
    = shapeCast S1x128 (m ((c : Thread nD τ).loc main_arg5)) shapeCasts_S128_S1x128 := by
  dsimp only [Gen.V1, Gen.W1, Gen.hostOps0]; after_results; rfl

/-- The state block of point t, at (p, j), is the state at row 2048·t + p, column j. -/
theorem state_block (c : Dev nD) (t : Fin cfg0.N) (p : Fin 2048) (j : Fin 128) :
    (iblk0 (V1 m ρ) c 0 t : Vec Ideal S2048x128 .f32) (ix2 p j)
      = (m ((c : Thread nD τ).loc main_arg0) : S32768x128.Idx → EReal)
          (ix2 (⟨t.val * 2048 + p.val, by have := t.isLt; have hN : cfg0.N = 16 := N_0; have := p.isLt; omega⟩ : Fin 32768) j) := by
  obtain ⟨e0, e1, -⟩ := block_indices t
  unfold iblk0
  rw [View.read_apply]
  show V1 m ρ c main_arg0 _ = _
  rw [entry_state]
  refine congrArg (m ((c : Thread nD τ).loc main_arg0)) (funext fun a => Fin.ext ?_)
  match a with
  | ⟨0, _⟩ => show win0_0.index t (0 : Fin 2) * 2048 + 1 * p.val = t.val * 2048 + p.val; omega
  | ⟨1, _⟩ => show win0_0.index t (1 : Fin 2) * 128 + 1 * j.val = j.val; omega

/-- The first weight matrix's block, at (j, k), is the launched matrix at (k, j). -/
theorem w1T_block (c : Dev nD) (t : Fin cfg0.N) (j k : Fin 128) :
    (iblk0 (V1 m ρ) c 1 t : Vec Ideal S128x128 .f32) (ix2 j k)
      = (m ((c : Thread nD τ).loc main_arg4) : S128x128.Idx → EReal) (ix2 k j) := by
  obtain ⟨-, -, e0, e1, -⟩ := block_indices t
  unfold iblk0
  rw [View.read_apply]
  show V1 m ρ c main_v0 _ = _
  rw [entry_w1T]
  have he : ((cfg0.win 1).blk t).view.emb (ix2 j k) = (ix2 j k : S128x128.Idx) := funext fun a => Fin.ext (by
    match a with
    | ⟨0, _⟩ => show win0_1.index t (0 : Fin 2) * 128 + 1 * j.val = j.val; omega
    | ⟨1, _⟩ => show win0_1.index t (1 : Fin 2) * 128 + 1 * k.val = k.val; omega)
  refine (congrArg (transpose S128x128 [1, 0] (m ((c : Thread nD τ).loc main_arg4)) transposes_S128x128_S128x128_1_0) he).trans ?_
  exact transpose_ix2_apply _ _ j k

/-- The second weight matrix's block, at (j, k), is the launched matrix at (k, j). -/
theorem w2T_block (c : Dev nD) (t : Fin cfg0.N) (j k : Fin 128) :
    (iblk0 (V1 m ρ) c 3 t : Vec Ideal S128x128 .f32) (ix2 j k)
      = (m ((c : Thread nD τ).loc main_arg6) : S128x128.Idx → EReal) (ix2 k j) := by
  obtain ⟨-, -, -, -, -, -, e0, e1, -⟩ := block_indices t
  unfold iblk0
  rw [View.read_apply]
  show V1 m ρ c main_v1 _ = _
  rw [entry_w2T]
  have he : ((cfg0.win 3).blk t).view.emb (ix2 j k) = (ix2 j k : S128x128.Idx) := funext fun a => Fin.ext (by
    match a with
    | ⟨0, _⟩ => show win0_3.index t (0 : Fin 2) * 128 + 1 * j.val = j.val; omega
    | ⟨1, _⟩ => show win0_3.index t (1 : Fin 2) * 128 + 1 * k.val = k.val; omega)
  refine (congrArg (transpose S128x128 [1, 0] (m ((c : Thread nD τ).loc main_arg6)) transposes_S128x128_S128x128_1_0) he).trans ?_
  exact transpose_ix2_apply _ _ j k

/-- The bias row's block, at (0, k), is the launched bias at k. -/
theorem bias_block (c : Dev nD) (t : Fin cfg0.N) (k : Fin 128) :
    (iblk0 (V1 m ρ) c 2 t : Vec Ideal S1x128 .f32) (ix2 0 k)
      = (m ((c : Thread nD τ).loc main_arg5) : S128.Idx → EReal) (ix1 k) := by
  obtain ⟨-, -, -, -, e0, e1, -⟩ := block_indices t
  unfold iblk0
  rw [View.read_apply]
  show V1 m ρ c main_v2 _ = _
  rw [entry_bias_row]
  have he : ((cfg0.win 2).blk t).view.emb (ix2 0 k) = (ix2 0 k : S1x128.Idx) := funext fun a => Fin.ext (by
    match a with
    | ⟨0, _⟩ => show win0_2.index t (0 : Fin 2) * 1 + 1 * 0 = 0; omega
    | ⟨1, _⟩ => show win0_2.index t (1 : Fin 2) * 128 + 1 * k.val = k.val; omega)
  refine (congrArg (shapeCast S1x128 (m ((c : Thread nD τ).loc main_arg5)) shapeCasts_S128_S1x128) he).trans ?_
  exact Cert.LibBroadcasts.row_cast_apply _ _ 0 k

/-- The body's value at point t, row p, channel q, is the message of edge 2048·t + p, channel q. -/
theorem message_at_point (c : Dev nD) (t : Fin cfg0.N) (p : Fin 2048) (q : Fin 128) :
    KBody.body0 (iblk0 (V1 m ρ) c 0 t) (iblk0 (V1 m ρ) c 1 t) (iblk0 (V1 m ρ) c 2 t) (iblk0 (V1 m ρ) c 3 t) (ix2 p q)
      = Spec.msg (m ((c : Thread nD τ).loc main_arg0)) (m ((c : Thread nD τ).loc main_arg4))
          (m ((c : Thread nD τ).loc main_arg5)) (m ((c : Thread nD τ).loc main_arg6))
          (⟨t.val * 2048 + p.val, by have := t.isLt; have hN : cfg0.N = 16 := N_0; have := p.isLt; omega⟩ : Fin 32768) q := by
  rw [KBody.body0_apply]
  unfold Spec.msg Spec.hid
  refine congrArg Spec.ls (Finset.sum_congr rfl fun k _ => ?_)
  rw [bias_block, w2T_block]
  refine congrArg (fun s => Spec.ls (s + _) * _) (Finset.sum_congr rfl fun j _ => ?_)
  rw [state_block, w1T_block]

/-- The edge messages as an array of the launch arguments. -/
abbrev msgs (c : Dev nD) : S32768x128.Idx → EReal :=
  Spec.msgArr (m ((c : Thread nD τ).loc main_arg0)) (m ((c : Thread nD τ).loc main_arg4))
    (m ((c : Thread nD τ).loc main_arg5)) (m ((c : Thread nD τ).loc main_arg6))

/-- The same with the edge read off the result block's place in the array. -/
theorem message_block (c : Dev nD) (t : Fin cfg0.N) (y : S2048x128.Idx) :
    KBody.body0 (iblk0 (V1 m ρ) c 0 t) (iblk0 (V1 m ρ) c 1 t) (iblk0 (V1 m ρ) c 2 t) (iblk0 (V1 m ρ) c 3 t) y
      = msgs m c (((cfg0.win 4).blk t).view.emb y) := by
  obtain ⟨-, -, -, -, -, -, -, -, e0, e1⟩ := block_indices t
  obtain ⟨p, q, rfl⟩ : ∃ p q, y = ix2 p q := ⟨y 0, y 1, eq_ix2 y⟩
  rw [message_at_point]
  have h0 : (((cfg0.win 4).blk t).view.emb (ix2 p q) : S32768x128.Idx) 0
      = (⟨t.val * 2048 + p.val, by have := t.isLt; have hN : cfg0.N = 16 := N_0; have := p.isLt; omega⟩ : Fin 32768) :=
    Fin.ext (by show win0_4.index t (0 : Fin 2) * 2048 + 1 * p.val = t.val * 2048 + p.val; omega)
  have h1 : (((cfg0.win 4).blk t).view.emb (ix2 p q) : S32768x128.Idx) 1 = q :=
    Fin.ext (by show win0_4.index t (1 : Fin 2) * 128 + 1 * q.val = q.val; omega)
  show _ = Spec.msg _ _ _ _ ((((cfg0.win 4).blk t).view.emb (ix2 p q) : S32768x128.Idx) 0)
    ((((cfg0.win 4).blk t).view.emb (ix2 p q) : S32768x128.Idx) 1)
  rw [h0, h1]

/-- What point t writes back is block t of the messages array. -/
theorem written_back (c : Dev nD) (t : Fin cfg0.N) :
    (dat0 (V1 m ρ) c).flushed 4 t = ((cfg0.win 4).blk t).view.read (Elt Ideal) (msgs m c) := by
  show (cfg0.win 4).cut (grid0.coords t) ((dat0 (V1 m ρ) c).after 4 t) = _
  rw [after0_4]
  unfold out0_4
  rw [View.canon_unit_zero zero_offsets]
  simp only [View.ld_unit_zero (S := S2048x128) zero_offsets, View.ld_unit_zero (S := S128x128) zero_offsets, View.ld_unit_zero (S := S1x128) zero_offsets]
  rw [KBody.pay0_eq]
  funext y
  exact message_block m ρ c t y

/-- An index of the array is in point t's block iff each coordinate is in the block's range on its axis. -/
theorem mem_block (t : Fin cfg0.N) (i : S32768x128.Idx) :
    i ∈ ((cfg0.win 4).blk t).view.set ↔ ∀ a : Fin 2, win0_4.index t a * S2048x128.size a ≤ (i a).val
      ∧ (i a).val < win0_4.index t a * S2048x128.size a + S2048x128.size a := by
  show i ∈ ((View.whole main_v3).slice (win0_4.rect t)).set ↔ _
  rw [View.set_slice_whole, Rect.mem_set_unit]
  exact Iff.rfl

/-- Every index is in some point's block: row r is in the block of point r / 2048. -/
theorem rows_covered (i : S32768x128.Idx) :
    ∃ t : Fin cfg0.N, (cfg0.win 4).flush t = true ∧ i ∈ ((cfg0.win 4).blk t).view.set := by
  have hN : cfg0.N = 16 := N_0
  have hi0 : (i 0).val < 32768 := (i 0).isLt
  have hi1 : (i 1).val < 128 := (i 1).isLt
  obtain ⟨t, ht⟩ : ∃ t : Fin cfg0.N, t.val = (i 0).val / 2048 := ⟨⟨(i 0).val / 2048, by omega⟩, rfl⟩
  obtain ⟨-, -, -, -, -, -, -, -, e0, e1⟩ := block_indices t
  refine ⟨t, flush0_4 t, ?_⟩
  rw [mem_block]
  intro a
  match a with
  | ⟨0, _⟩ =>
    show win0_4.index t (0 : Fin 2) * 2048 ≤ (i 0).val ∧ (i 0).val < win0_4.index t (0 : Fin 2) * 2048 + 2048
    omega
  | ⟨1, _⟩ =>
    show win0_4.index t (1 : Fin 2) * 128 ≤ (i 1).val ∧ (i 1).val < win0_4.index t (1 : Fin 2) * 128 + 128
    omega

/-- So after the 16 points the result array is the messages array … -/
theorem messages_final (c : Dev nD) : (dat0 (V1 m ρ) c).arrAt 4 cfg0.N = msgs m c :=
  (dat0 (V1 m ρ) c).arrAt_eq_of_cover 4 (msgs m c) (fun t _ => written_back m ρ c t) rows_covered

/-- … which is what the first launch leaves in its result buffer. -/
theorem msg_array (c : Dev nD) :
    W2 m ρ c (Proc.devRef .tc main_v3)
      = Spec.msgArr (m ((c : Thread nD τ).loc main_arg0)) (m ((c : Thread nD τ).loc main_arg4))
          (m ((c : Thread nD τ).loc main_arg5)) (m ((c : Thread nD τ).loc main_arg6)) :=
  (W2_arr m ρ c 4).trans (messages_final m ρ c)

end Cert.KernelIdeal.K0

end
-- ==== Proof.KBody1.lean ====
/-
  The second launch's body, at the extended reals. One step of the node sums: a 1024 by 1024 block x0 of the incidence
  matrix times a 1024 by 128 block x1 of the messages, added to what the output block xo already holds:

      xo p c + ∑ k, x0 p k · x1 k c.

  At the first step of each node block the body first stores the zero block.
-/
import proofs.«111909_j6468220748479_2_alg».proof.Proof.Gen.KernelIdeal.Skeleton
import proofs.«111909_j6468220748479_2_alg».proof.Proof.KBody0

noncomputable section

namespace Cert.KernelIdeal.KBody

open Idealize.ShloMosaic Idealize.ShloMosaic.ValueIdx
open Cert.KernelIdeal Cert.KernelIdeal.Gen
open scoped BigOperators

/-- The program's record for a 1024 by 1024 times 1024 by 128 product is the plain one. -/
theorem dot1_plain : dot_S1024x1024_S1024x128_S1024x128_1_0_0_1_n_n = DotDims.plain 1024 1024 128 := rfl

/-- The reset block is zero everywhere. -/
theorem zero_block_apply (i : S1024x128.Idx) : (k1_pay1 : FVec Ideal S1024x128 .f32) i = 0 := by
  show (Scalar.ofBits (F := Ideal) .f32 0x00000000#32 : EReal) = 0
  exact zero_word

/-- The accumulate step as one term of its three loaded blocks. -/
def body1 (x0 : Vec Ideal S1024x1024 .f32) (x1 : Vec Ideal S1024x128 .f32) (xo : Vec Ideal S1024x128 .f32) :
    FVec Ideal S1024x128 .f32 :=
  addf (shapeCast S1024x128 xo shapeCasts_S1024x128_S1024x128)
    (matmul dot_S1024x1024_S1024x128_S1024x128_1_0_0_1_n_n none (truncf .bf16 x0 bitsLt_bf16_f32)
      (truncf .bf16 (shapeCast S1024x128 x1 shapeCasts_S1024x128_S1024x128) bitsLt_bf16_f32)
      (constant S1024x128 .f32 0x00000000#32))

/-- The stored value is that term. -/
theorem pay1_eq (x0 : Vec Ideal S1024x1024 .f32) (x1 : Vec Ideal S1024x128 .f32) (xo : Vec Ideal S1024x128 .f32) :
    k1_pay2 x0 x1 xo = body1 x0 x1 xo := rfl

/-- The term at row p, channel c. -/
theorem body1_apply (x0 : Vec Ideal S1024x1024 .f32) (x1 : Vec Ideal S1024x128 .f32) (xo : Vec Ideal S1024x128 .f32)
    (p : Fin 1024) (c : Fin 128) :
    body1 x0 x1 xo (ix2 p c) = xo (ix2 p c) + ∑ k : Fin 1024, x0 (ix2 p k) * x1 (ix2 k c) := by
  unfold body1
  rw [addf_apply, shapeCast_self, shapeCast_self, dot1_plain, LibPlainMatmul.matmul_zero_apply]
  rfl

end Cert.KernelIdeal.KBody

end
-- ==== Proof.K1.lean ====
/-
  The second launch: the node sums. The grid has 2 node blocks of 1024 nodes and, for each, 32 steps over tiles of
  1024 edges. At step s of node block b the output's staging buffer holds, at (p, q),

      ∑ kt ≤ s, ∑ k < 1024, mask (1024 b + p) (1024 kt + k) · msg (1024 kt + k) q,

  the first step starting from the zero block and every later one adding its tile to what the step before left; the
  buffer is written back after the last step only, when the sum runs over all 32 tiles, that is over all 32768 edges.
  So the array ends at  node n q = ∑ e, mask n e · msg e q.
-/
import proofs.«111909_j6468220748479_2_alg».proof.Proof.Gen.KernelIdeal.Frame
import proofs.«111909_j6468220748479_2_alg».proof.Proof.KBody1
import proofs.«111909_j6468220748479_2_alg».proof.Proof.Spec
import Idealize.ShloMosaic.Lib.Pipeline.Value
import Idealize.ShloMosaic.Lib.Tactic

set_option maxRecDepth 16384

noncomputable section

namespace Cert.KernelIdeal.K1

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

theorem hz : (![0, 0] : Fin 2 → Nat) = fun _ => 0 := funext fun a => by fin_cases a <;> rfl

/-! ## What each control case leaves in the output's staging buffer -/

section Cases
variable {F : FTy → Type} [FloatOps F]

/-- A later step: the accumulate step of the two input blocks over what the buffer held. -/
theorem out_B (c : Dev nD) (i : grid1.Coords) (a2 : Memref sig .tc .vmem S1024x1024 .f32) (h2 : a2.IsWhole)
    (a3 : Memref sig .tc .vmem S1024x128 .f32) (h3 : a3.IsWhole) (a4 : Memref sig .tc .vmem S1024x128 .f32) (h4 : a4.IsWhole)
    (hc : ¬cond1_0 i) (x0 : Vec F S1024x1024 .f32) (x1 : Vec F S1024x128 .f32) (xo : Vec F S1024x128 .f32) :
    out1_B_2 c i a2 h2 a3 h3 a4 h4 hc x0 x1 xo = k1_pay2 x0 x1 xo := by
  unfold out1_B_2
  rw [View.read_writes_eq_canon _ _ _ (cover1_B_2 c i a2 h2 a3 h3 a4 h4 hc x0 x1 xo)]
  unfold kernelRun1_B
  dsimp only
  rw [View.canon_unit_zero hz]
  simp only [View.readAt_eq_ld, h2.read_unread, h3.read_unread, h4.read_unread, View.ld_unit_zero (S := S1024x1024) hz,
    View.ld_unit_zero (S := S1024x128) hz]

/-- The first step of a node block: the same over the zero block it has just stored. -/
theorem out_A (c : Dev nD) (i : grid1.Coords) (a2 : Memref sig .tc .vmem S1024x1024 .f32) (h2 : a2.IsWhole)
    (a3 : Memref sig .tc .vmem S1024x128 .f32) (h3 : a3.IsWhole) (a4 : Memref sig .tc .vmem S1024x128 .f32) (h4 : a4.IsWhole)
    (hc : cond1_0 i) (x0 : Vec F S1024x1024 .f32) (x1 : Vec F S1024x128 .f32) :
    out1_A_2 c i a2 h2 a3 h3 a4 h4 hc x0 x1 = k1_pay2 x0 x1 k1_pay1 := by
  unfold out1_A_2
  rw [View.read_writes_eq_canon _ _ _ (cover1_A_2 c i a2 h2 a3 h3 a4 h4 hc x0 x1)]
  unfold kernelRun1_A
  dsimp only
  sl_unfold_words
  rw [View.canon_cons_unit_zero (S := S1024x128) hz, View.readCov_unit_zero (S := S1024x128) _ hz]
  simp only [View.readAt_eq_ld, h2.read_unread, h3.read_unread, View.ld_unit_zero (S := S1024x1024) hz,
    View.ld_unit_zero (S := S1024x128) hz]

end Cases

/-! ## Tiles -/

/-- Row p of node block i, as a node (i below 2). -/
def rowN (i : ℕ) (p : Fin 1024) : Fin 2048 := ⟨(i * 1024 + p.val) % 2048, Nat.mod_lt _ (by norm_num)⟩
/-- Position k of edge tile kt, as an edge (kt below 32). -/
def colN (kt : ℕ) (k : Fin 1024) : Fin 32768 := ⟨(kt * 1024 + k.val) % 32768, Nat.mod_lt _ (by norm_num)⟩

/-- Edge tile kt's contribution to node (i, p), channel q. -/
def tile (A : Spec.Mat 2048 32768) (S : Spec.Mat 32768 128) (i kt : ℕ) (p : Fin 1024) (q : Fin 128) : EReal :=
  ∑ k : Fin 1024, A (ix2 (rowN i p) (colN kt k)) * S (ix2 (colN kt k) q)

/-- The node sums of an incidence matrix and a message array. -/
def nodeOf (A : Spec.Mat 2048 32768) (S : Spec.Mat 32768 128) : Spec.Mat 2048 128 :=
  fun i => ∑ e : Fin 32768, A (ix2 (i 0) e) * S (ix2 e (i 1))

/-- A sum over the 32768 edges is the sum over 32 tiles of 1024. -/
theorem sum_tiles (f : Fin 32768 → EReal) :
    ∑ e : Fin 32768, f e = ∑ kt ∈ Finset.range 32, ∑ k : Fin 1024, f (colN kt k) := by
  rw [Finset.sum_range (fun kt => ∑ k : Fin 1024, f (colN kt k))]
  calc ∑ e : Fin 32768, f e
      = ∑ x : Fin 32 × Fin 1024, f ((finProdFinEquiv : Fin 32 × Fin 1024 ≃ Fin 32768) x) :=
        (Equiv.sum_comp (finProdFinEquiv : Fin 32 × Fin 1024 ≃ Fin 32768) f).symm
    _ = ∑ a : Fin 32, ∑ k : Fin 1024, f ((finProdFinEquiv : Fin 32 × Fin 1024 ≃ Fin 32768) (a, k)) :=
        Fintype.sum_prod_type _
    _ = ∑ a : Fin 32, ∑ k : Fin 1024, f (colN a.val k) :=
        Finset.sum_congr rfl fun a _ => Finset.sum_congr rfl fun k _ => congrArg f (Fin.ext (by
          show k.val + 1024 * a.val = (a.val * 1024 + k.val) % 32768
          have := a.isLt; have := k.isLt; omega))

/-! ## The launch at any entry contents -/

section Region
variable (V : (c : Dev nD) → (b : Ref sig .tc) → Buf (Elt Ideal) ((c : Thread nD τ).loc b))

/-- The printed index maps over the 64 grid points: the incidence block is (node block, edge tile), the message block
    the edge tile, the output block the node block. -/
theorem idx_facts : ∀ t : Fin cfg1.N, win1_0.index t (0 : Fin 2) = t.val / 32 ∧ win1_0.index t (1 : Fin 2) = t.val % 32
    ∧ win1_1.index t (0 : Fin 2) = t.val % 32 ∧ win1_1.index t (1 : Fin 2) = 0
    ∧ win1_2.index t (0 : Fin 2) = t.val / 32 ∧ win1_2.index t (1 : Fin 2) = 0 :=
  (by decide +kernel : ∀ t : Fin grid1.N, _)

/-- The incidence block at a point, entry by entry. -/
theorem iblk_mask (c : Dev nD) (t : Fin cfg1.N) (p k : Fin 1024) :
    iblk1 V c 0 t (ix2 p k) = V c main_arg2 (ix2 (rowN (t.val / 32) p) (colN (t.val % 32) k)) := by
  obtain ⟨e0, e1, -, -, -, -⟩ := idx_facts t
  have hN : t.val < 64 := lt_of_lt_of_eq t.isLt (show cfg1.N = 64 from N_1)
  unfold iblk1
  rw [View.read_apply]
  show V c main_arg2 (((cfg1.win 0).blk t).view.emb (ix2 p k)) = V c main_arg2 _
  refine congrArg (V c main_arg2) ?_
  funext a; apply Fin.ext
  match a with
  | ⟨0, _⟩ =>
    show win1_0.index t (0 : Fin 2) * 1024 + 1 * p.val = (t.val / 32 * 1024 + p.val) % 2048
    have := p.isLt; omega
  | ⟨1, _⟩ =>
    show win1_0.index t (1 : Fin 2) * 1024 + 1 * k.val = (t.val % 32 * 1024 + k.val) % 32768
    have := k.isLt; omega

/-- The message block at a point, entry by entry. -/
theorem iblk_msg (c : Dev nD) (t : Fin cfg1.N) (k : Fin 1024) (q : Fin 128) :
    iblk1 V c 1 t (ix2 k q) = V c main_v3 (ix2 (colN (t.val % 32) k) q) := by
  obtain ⟨-, -, e2, e3, -, -⟩ := idx_facts t
  unfold iblk1
  rw [View.read_apply]
  show V c main_v3 (((cfg1.win 1).blk t).view.emb (ix2 k q)) = V c main_v3 _
  refine congrArg (V c main_v3) ?_
  funext a; apply Fin.ext
  match a with
  | ⟨0, _⟩ =>
    show win1_1.index t (0 : Fin 2) * 1024 + 1 * k.val = (t.val % 32 * 1024 + k.val) % 32768
    have := k.isLt; omega
  | ⟨1, _⟩ =>
    show win1_1.index t (1 : Fin 2) * 128 + 1 * q.val = q.val
    omega

/-- One point's tile, from its two blocks. -/
theorem tile_eq (c : Dev nD) (t : Fin cfg1.N) (p : Fin 1024) (q : Fin 128)
    (x0 : Vec Ideal S1024x1024 .f32) (x1 : Vec Ideal S1024x128 .f32) (h0 : x0 = iblk1 V c 0 t) (h1 : x1 = iblk1 V c 1 t) :
    (∑ k : Fin 1024, x0 (ix2 p k) * x1 (ix2 k q))
      = tile (V c main_arg2) (V c main_v3) (t.val / 32) (t.val % 32) p q := by
  subst h0 h1
  unfold tile
  refine Finset.sum_congr rfl fun k _ => ?_
  rw [iblk_mask, iblk_msg]

/-- THE RUNNING SUM: after point n the buffer holds the tiles up to n's step, by induction on the point. -/
theorem outsAt_eq (c : Dev nD) : ∀ (n : ℕ) (h : n < cfg1.N) (p : Fin 1024) (q : Fin 128),
    outsAt1 V c n h (ix2 p q) = ∑ kt ∈ Finset.range (n % 32 + 1), tile (V c main_arg2) (V c main_v3) (n / 32) kt p q
  | 0, h, p, q => by
    rw [outsAt1_A V c ⟨0, h⟩ rfl, out_A, KBody.pay1_eq, KBody.body1_apply, KBody.zero_block_apply, zero_add, tile_eq V c _ p q _ _ rfl rfl]
    exact (Finset.sum_range_one (fun kt => tile (V c main_arg2) (V c main_v3) (0 / 32) kt p q)).symm
  | n + 1, h, p, q => by
    by_cases h0 : (n + 1) % 32 = 0
    · rw [outsAt1_A V c ⟨n + 1, h⟩ h0, out_A, KBody.pay1_eq, KBody.body1_apply, KBody.zero_block_apply, zero_add, tile_eq V c _ p q _ _ rfl rfl]
      show tile _ _ ((n + 1) / 32) ((n + 1) % 32) p q = _
      rw [h0]
      exact (Finset.sum_range_one (fun kt => tile (V c main_arg2) (V c main_v3) ((n + 1) / 32) kt p q)).symm
    · rw [outsAt1_B V c ⟨n + 1, h⟩ h0, out_B, KBody.pay1_eq, KBody.body1_apply, tile_eq V c _ p q _ _ rfl rfl]
      show outsAt1 V c n _ (ix2 p q) + tile _ _ ((n + 1) / 32) ((n + 1) % 32) p q = _
      rw [outsAt_eq c n _ p q]
      have e1 : (n + 1) % 32 = n % 32 + 1 := by omega
      have e2 : (n + 1) / 32 = n / 32 := by omega
      rw [e1, e2, Finset.sum_range_succ _ (n % 32 + 1)]

/-- An index of the node array is in a point's output block iff each coordinate is in the block's range. -/
theorem mem_blk (t : Fin cfg1.N) (i : S2048x128.Idx) :
    i ∈ ((cfg1.win 2).blk t).view.set ↔ ∀ a : Fin 2, win1_2.index t a * S1024x128.size a ≤ (i a).val
      ∧ (i a).val < win1_2.index t a * S1024x128.size a + S1024x128.size a := by
  show i ∈ ((View.whole main_v4).slice (win1_2.rect t)).set ↔ _
  rw [View.set_slice_whole, Rect.mem_set_unit]
  exact Iff.rfl

set_option maxRecDepth 200000 in
/-- WHAT A WRITING POINT WRITES BACK (the last step of its node block) is its block of the node sums. -/
theorem flushed_eq (c : Dev nD) (t : Fin cfg1.N) (hf : (cfg1.win 2).flush t = true) :
    (dat1 V c).flushed 2 t = ((cfg1.win 2).blk t).view.read (Elt Ideal) (nodeOf (V c main_arg2) (V c main_v3)) := by
  have h31 : t.val % 32 = 31 := (flush1_2 t).mp hf
  have hN : t.val < 64 := lt_of_lt_of_eq t.isLt (show cfg1.N = 64 from N_1)
  obtain ⟨-, -, -, -, e4, e5⟩ := idx_facts t
  show (cfg1.win 2).cut (grid1.coords t) ((dat1 V c).after 2 t) = _
  rw [after1_2]
  funext j
  obtain ⟨p, q, rfl⟩ : ∃ (p : Fin 1024) (q : Fin 128), j = ix2 p q := ⟨j 0, j 1, eq_ix2 j⟩
  rw [View.read_apply]
  show outsAt1 V c t.val t.isLt (ix2 p q) = nodeOf (V c main_arg2) (V c main_v3) (((cfg1.win 2).blk t).view.emb (ix2 p q))
  have hemb : ((cfg1.win 2).blk t).view.emb (ix2 p q) = ix2 (rowN (t.val / 32) p) q := by
    funext a; apply Fin.ext
    match a with
    | ⟨0, _⟩ =>
      show win1_2.index t (0 : Fin 2) * 1024 + 1 * p.val = (t.val / 32 * 1024 + p.val) % 2048
      have := p.isLt; omega
    | ⟨1, _⟩ =>
      show win1_2.index t (1 : Fin 2) * 128 + 1 * q.val = q.val
      omega
  rw [hemb, outsAt_eq, h31]
  unfold nodeOf tile
  exact (sum_tiles fun e => (fun (A : Spec.Mat 2048 32768) (S : Spec.Mat 32768 128) => A (ix2 (rowN (t.val / 32) p) e) * S (ix2 e q))
    (V c main_arg2) (V c main_v3)).symm

/-- The node array after the launch: the two writing points cover it. -/
theorem final (c : Dev nD) : (dat1 V c).arrAt 2 cfg1.N = nodeOf (V c main_arg2) (V c main_v3) :=
  (dat1 V c).arrAt_eq_of_cover 2 _ (flushed_eq V c) fun i => by
    have hi0 : (i 0).val < 2048 := (i 0).isLt
    have hi1 : (i 1).val < 128 := (i 1).isLt
    have hN : cfg1.N = 64 := N_1
    refine ⟨⟨(i 0).val / 1024 * 32 + 31, by rw [hN]; omega⟩, (flush1_2 _).mpr (by show ((i 0).val / 1024 * 32 + 31) % 32 = 31; omega), ?_⟩
    obtain ⟨-, -, -, -, e4, e5⟩ := idx_facts ⟨(i 0).val / 1024 * 32 + 31, by rw [hN]; omega⟩
    rw [mem_blk]
    intro a
    match a with
    | ⟨0, _⟩ =>
      show win1_2.index _ (0 : Fin 2) * 1024 ≤ (i 0).val ∧ (i 0).val < win1_2.index _ (0 : Fin 2) * 1024 + 1024
      rw [e4]; show ((i 0).val / 1024 * 32 + 31) / 32 * 1024 ≤ (i 0).val ∧ (i 0).val < ((i 0).val / 1024 * 32 + 31) / 32 * 1024 + 1024
      omega
    | ⟨1, _⟩ =>
      show win1_2.index _ (1 : Fin 2) * 128 ≤ (i 1).val ∧ (i 1).val < win1_2.index _ (1 : Fin 2) * 128 + 128
      rw [e5]; omega

end Region

end Cert.KernelIdeal.K1

end
-- ==== Proof.KMid.lean ====
/-
  Between the launches. The incidence matrix is written by nothing before the second launch, so that launch finds it
  as launched; the second launch only reads the message array, so the third finds the first launch's messages; and
  the node array the second launch leaves is the node sums of the launched incidence matrix and those messages.
-/
import proofs.«111909_j6468220748479_2_alg».proof.Proof.Gen.KernelIdeal.Frame
import proofs.«111909_j6468220748479_2_alg».proof.Proof.K0
import proofs.«111909_j6468220748479_2_alg».proof.Proof.K1

set_option maxRecDepth 16384

noncomputable section

namespace Cert.KernelIdeal.KMid

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The incidence matrix at the second launch's entry is the launched one. -/
theorem mask_entry (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg2) := rfl

/-- The second launch leaves the message array as it found it. -/
theorem msg_kept (c : Dev nD) : W3 m ρ c (Proc.devRef .tc main_v3) = W2 m ρ c (Proc.devRef .tc main_v3) :=
  (W3_arr m ρ c 1).trans (((dat1 (V2 m ρ) c).arrAt_in 1 rfl _).trans (A_eq1 (V2 m ρ) c 1))

/-- The node array after the second launch. -/
theorem node_array (c : Dev nD) : W3 m ρ c (Proc.devRef .tc main_v4)
    = K1.nodeOf (m ((c : Thread nD τ).loc main_arg2))
        (Spec.msgArr (m ((c : Thread nD τ).loc main_arg0)) (m ((c : Thread nD τ).loc main_arg4))
          (m ((c : Thread nD τ).loc main_arg5)) (m ((c : Thread nD τ).loc main_arg6))) := by
  have h := (W3_arr m ρ c 2).trans (K1.final (V2 m ρ) c)
  rw [show V2 m ρ c main_arg2 = m ((c : Thread nD τ).loc main_arg2) from mask_entry m ρ c,
    show V2 m ρ c main_v3 = _ from K0.msg_array m ρ c] at h
  exact h

end Cert.KernelIdeal.KMid

end
-- ==== Proof.KBody2.lean ====
/-
  The third launch's body, at the extended reals. One block of 1024 edges: the block x0 of the transposed incidence
  matrix (1024 by 2048), the node sums x1 (2048 by 128), the block x2 of the messages, the block x3 of the features
  (1024 by 32), the two transposed parts x4 (128 by 128) and x5 (32 by 128) of the first aggregation weight matrix, its
  bias as a row x6 and the transposed second weight matrix x7 give, at row p and channel c,

      ls (∑ k, ls ((∑ j<128, ((∑ n, x0 p n · x1 n j) − x2 p j) · x4 j k) + (∑ j<32, x3 p j · x5 j k) + x6 0 k) · x7 k c).
-/
import proofs.«111909_j6468220748479_2_alg».proof.Proof.Gen.KernelIdeal.Skeleton
import proofs.«111909_j6468220748479_2_alg».proof.Proof.KBody0

noncomputable section

namespace Cert.KernelIdeal.KBody

open Idealize.ShloMosaic Idealize.ShloMosaic.ValueIdx
open Cert.KernelIdeal Cert.KernelIdeal.Gen
open scoped BigOperators

theorem dot2a_plain : dot_S1024x2048_S2048x128_S1024x128_1_0_0_1_n_n = DotDims.plain 1024 2048 128 := rfl
theorem dot2b_plain : dot_S1024x128_S128x128_S1024x128_1_0_0_1_n_n = DotDims.plain 1024 128 128 := rfl
theorem dot2c_plain : dot_S1024x32_S32x128_S1024x128_1_0_0_1_n_n = DotDims.plain 1024 32 128 := rfl

/-- What the block's edges receive from their nodes, their own messages removed. -/
def recv2 (x0 : Vec Ideal S1024x2048 .f32) (x1 : Vec Ideal S2048x128 .f32) (x2 : Vec Ideal S1024x128 .f32) :
    FVec Ideal S1024x128 .f32 :=
  subf (matmul dot_S1024x2048_S2048x128_S1024x128_1_0_0_1_n_n none (truncf .bf16 x0 bitsLt_bf16_f32)
      (truncf .bf16 (shapeCast S2048x128 x1 shapeCasts_S2048x128_S2048x128) bitsLt_bf16_f32)
      (constant S1024x128 .f32 0x00000000#32))
    (shapeCast S1024x128 x2 shapeCasts_S1024x128_S1024x128)

/-- The aggregation perceptron's hidden pre-activation on the block. -/
def hid2V (x0 : Vec Ideal S1024x2048 .f32) (x1 : Vec Ideal S2048x128 .f32) (x2 : Vec Ideal S1024x128 .f32)
    (x3 : Vec Ideal S1024x32 .f32) (x4 : Vec Ideal S128x128 .f32) (x5 : Vec Ideal S32x128 .f32) (x6 : Vec Ideal S1x128 .f32) :
    FVec Ideal S1024x128 .f32 :=
  addf
    (addf
      (matmul dot_S1024x128_S128x128_S1024x128_1_0_0_1_n_n none (truncf .bf16 (recv2 x0 x1 x2) bitsLt_bf16_f32)
        (truncf .bf16 (shapeCast S128x128 x4 shapeCasts_S128x128_S128x128) bitsLt_bf16_f32)
        (constant S1024x128 .f32 0x00000000#32))
      (matmul dot_S1024x32_S32x128_S1024x128_1_0_0_1_n_n none (truncf .bf16 x3 bitsLt_bf16_f32)
        (truncf .bf16 (shapeCast S32x128 x5 shapeCasts_S32x128_S32x128) bitsLt_bf16_f32)
        (constant S1024x128 .f32 0x00000000#32)))
    (broadcastTo S1024x128 (shapeCast S1x128 x6 shapeCasts_S1x128_S1x128) broadcasts_S1x128_S1024x128)

/-- The body of the third launch as one term of its eight loaded blocks. -/
def body2 (x0 : Vec Ideal S1024x2048 .f32) (x1 : Vec Ideal S2048x128 .f32) (x2 : Vec Ideal S1024x128 .f32)
    (x3 : Vec Ideal S1024x32 .f32) (x4 : Vec Ideal S128x128 .f32) (x5 : Vec Ideal S32x128 .f32) (x6 : Vec Ideal S1x128 .f32)
    (x7 : Vec Ideal S128x128 .f32) : FVec Ideal S1024x128 .f32 :=
  lsV (matmul dot_S1024x128_S128x128_S1024x128_1_0_0_1_n_n none
    (truncf .bf16 (lsV (hid2V x0 x1 x2 x3 x4 x5 x6)) bitsLt_bf16_f32)
    (truncf .bf16 (shapeCast S128x128 x7 shapeCasts_S128x128_S128x128) bitsLt_bf16_f32)
    (constant S1024x128 .f32 0x00000000#32))

/-- The stored value, assembled from the skeleton's pieces, is that term. -/
theorem pay2_eq (x0 : Vec Ideal S1024x2048 .f32) (x1 : Vec Ideal S2048x128 .f32) (x2 : Vec Ideal S1024x128 .f32)
    (x3 : Vec Ideal S1024x32 .f32) (x4 : Vec Ideal S128x128 .f32) (x5 : Vec Ideal S32x128 .f32) (x6 : Vec Ideal S1x128 .f32)
    (x7 : Vec Ideal S128x128 .f32) :
    k2_pay1 (k2_pay3 x0 x1 x2 x3 x4 x5 x6) (k2_pay5 x0 x1 x2 x3 x4 x5 x6) (k2_pay6 x0 x1 x2 x3 x4 x5 x6)
      (k2_pay7 x0 x1 x2 x3 x4 x5 x6) x7 = body2 x0 x1 x2 x3 x4 x5 x6 x7 := rfl

/-- The received part at row p, channel j. -/
theorem recv2_apply (x0 : Vec Ideal S1024x2048 .f32) (x1 : Vec Ideal S2048x128 .f32) (x2 : Vec Ideal S1024x128 .f32)
    (p : Fin 1024) (j : Fin 128) :
    recv2 x0 x1 x2 (ix2 p j) = (∑ n : Fin 2048, x0 (ix2 p n) * x1 (ix2 n j)) - x2 (ix2 p j) := by
  unfold recv2
  rw [subf_apply, shapeCast_self, shapeCast_self, dot2a_plain, LibPlainMatmul.matmul_zero_apply]
  rfl

/-- The hidden pre-activation at row p, unit k. -/
theorem hid2V_apply (x0 : Vec Ideal S1024x2048 .f32) (x1 : Vec Ideal S2048x128 .f32) (x2 : Vec Ideal S1024x128 .f32)
    (x3 : Vec Ideal S1024x32 .f32) (x4 : Vec Ideal S128x128 .f32) (x5 : Vec Ideal S32x128 .f32) (x6 : Vec Ideal S1x128 .f32)
    (p : Fin 1024) (k : Fin 128) :
    hid2V x0 x1 x2 x3 x4 x5 x6 (ix2 p k)
      = ((∑ j : Fin 128, ((∑ n : Fin 2048, x0 (ix2 p n) * x1 (ix2 n j)) - x2 (ix2 p j)) * x4 (ix2 j k))
          + ∑ j : Fin 32, x3 (ix2 p j) * x5 (ix2 j k)) + x6 (ix2 0 k) := by
  unfold hid2V
  rw [addf_apply, addf_apply, shapeCast_self, shapeCast_self, shapeCast_self, dot2b_plain, dot2c_plain,
    LibPlainMatmul.matmul_zero_apply, LibPlainMatmul.matmul_zero_apply, broadcastTo_1b_ab_apply]
  refine congrArg₂ (· + ·) (congrArg₂ (· + ·) (Finset.sum_congr rfl fun j _ => ?_) rfl) rfl
  rw [truncf_apply, recv2_apply]
  rfl

/-- The term at row p, channel c. -/
theorem body2_apply (x0 : Vec Ideal S1024x2048 .f32) (x1 : Vec Ideal S2048x128 .f32) (x2 : Vec Ideal S1024x128 .f32)
    (x3 : Vec Ideal S1024x32 .f32) (x4 : Vec Ideal S128x128 .f32) (x5 : Vec Ideal S32x128 .f32) (x6 : Vec Ideal S1x128 .f32)
    (x7 : Vec Ideal S128x128 .f32) (p : Fin 1024) (c : Fin 128) :
    body2 x0 x1 x2 x3 x4 x5 x6 x7 (ix2 p c)
      = Spec.ls (∑ k : Fin 128, Spec.ls (((∑ j : Fin 128, ((∑ n : Fin 2048, x0 (ix2 p n) * x1 (ix2 n j)) - x2 (ix2 p j)) * x4 (ix2 j k))
          + ∑ j : Fin 32, x3 (ix2 p j) * x5 (ix2 j k)) + x6 (ix2 0 k)) * x7 (ix2 k c)) := by
  unfold body2
  rw [lsV_apply, dot2b_plain, LibPlainMatmul.matmul_zero_apply]
  refine congrArg Spec.ls (Finset.sum_congr rfl fun k _ => ?_)
  rw [truncf_apply, truncf_apply, lsV_apply, hid2V_apply, shapeCast_self]

end Cert.KernelIdeal.KBody

end
-- ==== Proof.K2.lean ====
/-
  The third launch: the output. The grid has 32 points, one per block of 1024 edges. Point t reads rows
  1024 t … 1024 t + 1023 of the transposed incidence matrix, of the messages and of the features, and all of the node
  sums and of the four parameter arrays; it writes the same rows of the output. So every output entry (e, c) is the
  third body's function of row e of those arrays, and the 32 blocks cover the output.
-/
import proofs.«111909_j6468220748479_2_alg».proof.Proof.Gen.KernelIdeal.Frame
import proofs.«111909_j6468220748479_2_alg».proof.Proof.KBody2
import proofs.«111909_j6468220748479_2_alg».proof.Proof.Spec
import Idealize.ShloMosaic.Lib.Pipeline.Value
import Idealize.ShloMosaic.Lib.Tactic

set_option maxRecDepth 16384

noncomputable section

namespace Cert.KernelIdeal.K2

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

theorem hz : (![0, 0] : Fin 2 → Nat) = fun _ => 0 := funext fun a => by fin_cases a <;> rfl

/-- Row p of edge block t, as an edge (t below 32). -/
def rowE (t : ℕ) (p : Fin 1024) : Fin 32768 := ⟨(t * 1024 + p.val) % 32768, Nat.mod_lt _ (by norm_num)⟩

/-- The output array as a function of the eight arrays the launch reads: the transposed incidence matrix, the node
    sums, the messages, the features, the two parts of the first aggregation weight matrix (transposed), its bias as
    a row, and the second weight matrix (transposed). -/
def outOf (MT : Spec.Mat 32768 2048) (Nd : Spec.Mat 2048 128) (S : Spec.Mat 32768 128) (Ft : Spec.Mat 32768 32)
    (Wa : Spec.Mat 128 128) (Wf : Spec.Mat 32 128) (B : Spec.Mat 1 128) (Wo : Spec.Mat 128 128) : Spec.Mat 32768 128 :=
  fun i => Spec.ls (∑ k : Fin 128, Spec.ls (((∑ j : Fin 128, ((∑ n : Fin 2048, MT (ix2 (i 0) n) * Nd (ix2 n j)) - S (ix2 (i 0) j)) * Wa (ix2 j k))
      + ∑ j : Fin 32, Ft (ix2 (i 0) j) * Wf (ix2 j k)) + B (ix2 0 k)) * Wo (ix2 k (i 1)))

section Region
variable (V : (c : Dev nD) → (b : Ref sig .tc) → Buf (Elt Ideal) ((c : Thread nD τ).loc b))

/-- The printed index maps over the 32 grid points: the three row-blocked inputs and the output move with the point,
    the five whole inputs stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

theorem iblk_maskT (c : Dev nD) (t : Fin cfg2.N) (p : Fin 1024) (n : Fin 2048) :
    iblk2 V c 0 t (ix2 p n) = V c main_arg3 (ix2 (rowE t.val p) n) := by
  obtain ⟨e0, e1, -⟩ := idx_facts t
  have hN : t.val < 32 := lt_of_lt_of_eq t.isLt (show cfg2.N = 32 from N_2)
  unfold iblk2
  rw [View.read_apply]
  show V c main_arg3 (((cfg2.win 0).blk t).view.emb (ix2 p n)) = V c main_arg3 _
  refine congrArg (V c main_arg3) ?_
  funext a; apply Fin.ext
  match a with
  | ⟨0, _⟩ =>
    show win2_0.index t (0 : Fin 2) * 1024 + 1 * p.val = (t.val * 1024 + p.val) % 32768
    have := p.isLt; omega
  | ⟨1, _⟩ =>
    show win2_0.index t (1 : Fin 2) * 2048 + 1 * n.val = n.val
    omega

theorem iblk_node (c : Dev nD) (t : Fin cfg2.N) (n : Fin 2048) (j : Fin 128) :
    iblk2 V c 1 t (ix2 n j) = V c main_v4 (ix2 n j) := by
  obtain ⟨-, -, e0, e1, -⟩ := idx_facts t
  unfold iblk2
  rw [View.read_apply]
  show V c main_v4 (((cfg2.win 1).blk t).view.emb (ix2 n j)) = V c main_v4 _
  refine congrArg (V c main_v4) ?_
  funext a; apply Fin.ext
  match a with
  | ⟨0, _⟩ => show win2_1.index t (0 : Fin 2) * 2048 + 1 * n.val = n.val; omega
  | ⟨1, _⟩ => show win2_1.index t (1 : Fin 2) * 128 + 1 * j.val = j.val; omega

theorem iblk_msg (c : Dev nD) (t : Fin cfg2.N) (p : Fin 1024) (j : Fin 128) :
    iblk2 V c 2 t (ix2 p j) = V c main_v3 (ix2 (rowE t.val p) j) := by
  obtain ⟨-, -, -, -, e0, e1, -⟩ := idx_facts t
  have hN : t.val < 32 := lt_of_lt_of_eq t.isLt (show cfg2.N = 32 from N_2)
  unfold iblk2
  rw [View.read_apply]
  show V c main_v3 (((cfg2.win 2).blk t).view.emb (ix2 p j)) = V c main_v3 _
  refine congrArg (V c main_v3) ?_
  funext a; apply Fin.ext
  match a with
  | ⟨0, _⟩ =>
    show win2_2.index t (0 : Fin 2) * 1024 + 1 * p.val = (t.val * 1024 + p.val) % 32768
    have := p.isLt; omega
  | ⟨1, _⟩ => show win2_2.index t (1 : Fin 2) * 128 + 1 * j.val = j.val; omega

theorem iblk_feat (c : Dev nD) (t : Fin cfg2.N) (p : Fin 1024) (j : Fin 32) :
    iblk2 V c 3 t (ix2 p j) = V c main_arg1 (ix2 (rowE t.val p) j) := by
  obtain ⟨-, -, -, -, -, -, e0, e1, -⟩ := idx_facts t
  have hN : t.val < 32 := lt_of_lt_of_eq t.isLt (show cfg2.N = 32 from N_2)
  unfold iblk2
  rw [View.read_apply]
  show V c main_arg1 (((cfg2.win 3).blk t).view.emb (ix2 p j)) = V c main_arg1 _
  refine congrArg (V c main_arg1) ?_
  funext a; apply Fin.ext
  match a with
  | ⟨0, _⟩ =>
    show win2_3.index t (0 : Fin 2) * 1024 + 1 * p.val = (t.val * 1024 + p.val) % 32768
    have := p.isLt; omega
  | ⟨1, _⟩ => show win2_3.index t (1 : Fin 2) * 32 + 1 * j.val = j.val; omega

theorem iblk_wa (c : Dev nD) (t : Fin cfg2.N) (j k : Fin 128) :
    iblk2 V c 4 t (ix2 j k) = V c main_v6 (ix2 j k) := by
  obtain ⟨-, -, -, -, -, -, -, -, e0, e1, -⟩ := idx_facts t
  unfold iblk2
  rw [View.read_apply]
  show V c main_v6 (((cfg2.win 4).blk t).view.emb (ix2 j k)) = V c main_v6 _
  refine congrArg (V c main_v6) ?_
  funext a; apply Fin.ext
  match a with
  | ⟨0, _⟩ => show win2_4.index t (0 : Fin 2) * 128 + 1 * j.val = j.val; omega
  | ⟨1, _⟩ => show win2_4.index t (1 : Fin 2) * 128 + 1 * k.val = k.val; omega

theorem iblk_wf (c : Dev nD) (t : Fin cfg2.N) (j : Fin 32) (k : Fin 128) :
    iblk2 V c 5 t (ix2 j k) = V c main_v8 (ix2 j k) := by
  obtain ⟨-, -, -, -, -, -, -, -, -, -, e0, e1, -⟩ := idx_facts t
  unfold iblk2
  rw [View.read_apply]
  show V c main_v8 (((cfg2.win 5).blk t).view.emb (ix2 j k)) = V c main_v8 _
  refine congrArg (V c main_v8) ?_
  funext a; apply Fin.ext
  match a with
  | ⟨0, _⟩ => show win2_5.index t (0 : Fin 2) * 32 + 1 * j.val = j.val; omega
  | ⟨1, _⟩ => show win2_5.index t (1 : Fin 2) * 128 + 1 * k.val = k.val; omega

theorem iblk_bias (c : Dev nD) (t : Fin cfg2.N) (z : Fin 1) (k : Fin 128) :
    iblk2 V c 6 t (ix2 z k) = V c main_v9 (ix2 z k) := by
  obtain ⟨-, -, -, -, -, -, -, -, -, -, -, -, e0, e1, -⟩ := idx_facts t
  unfold iblk2
  rw [View.read_apply]
  show V c main_v9 (((cfg2.win 6).blk t).view.emb (ix2 z k)) = V c main_v9 _
  refine congrArg (V c main_v9) ?_
  funext a; apply Fin.ext
  match a with
  | ⟨0, _⟩ => show win2_6.index t (0 : Fin 2) * 1 + 1 * z.val = z.val; omega
  | ⟨1, _⟩ => show win2_6.index t (1 : Fin 2) * 128 + 1 * k.val = k.val; omega

theorem iblk_wo (c : Dev nD) (t : Fin cfg2.N) (k q : Fin 128) :
    iblk2 V c 7 t (ix2 k q) = V c main_v10 (ix2 k q) := by
  obtain ⟨-, -, -, -, -, -, -, -, -, -, -, -, -, -, e0, e1, -⟩ := idx_facts t
  unfold iblk2
  rw [View.read_apply]
  show V c main_v10 (((cfg2.win 7).blk t).view.emb (ix2 k q)) = V c main_v10 _
  refine congrArg (V c main_v10) ?_
  funext a; apply Fin.ext
  match a with
  | ⟨0, _⟩ => show win2_7.index t (0 : Fin 2) * 128 + 1 * k.val = k.val; omega
  | ⟨1, _⟩ => show win2_7.index t (1 : Fin 2) * 128 + 1 * q.val = q.val; omega

/-- An index of the output array is in a point's block iff each coordinate is in the block's range. -/
theorem mem_blk (t : Fin cfg2.N) (i : S32768x128.Idx) :
    i ∈ ((cfg2.win 8).blk t).view.set ↔ ∀ a : Fin 2, win2_8.index t a * S1024x128.size a ≤ (i a).val
      ∧ (i a).val < win2_8.index t a * S1024x128.size a + S1024x128.size a := by
  show i ∈ ((View.whole main_v11).slice (win2_8.rect t)).set ↔ _
  rw [View.set_slice_whole, Rect.mem_set_unit]
  exact Iff.rfl

set_option maxRecDepth 200000 in
/-- WHAT POINT t WRITES BACK is its block of rows of the output function of the arrays as the launch finds them. -/
theorem flushed_eq (c : Dev nD) (t : Fin cfg2.N) :
    (dat2 V c).flushed 8 t = ((cfg2.win 8).blk t).view.read (Elt Ideal)
      (outOf (V c main_arg3) (V c main_v4) (V c main_v3) (V c main_arg1) (V c main_v6) (V c main_v8) (V c main_v9) (V c main_v10)) := by
  obtain ⟨-, -, -, -, -, -, -, -, -, -, -, -, -, -, -, -, e0, e1⟩ := idx_facts t
  have hN : t.val < 32 := lt_of_lt_of_eq t.isLt (show cfg2.N = 32 from N_2)
  show (cfg2.win 8).cut (grid2.coords t) ((dat2 V c).after 8 t) = _
  rw [after2_8]
  unfold out2_8
  rw [View.canon_unit_zero hz]
  simp only [View.ld_unit_zero (S := S1024x2048) hz, View.ld_unit_zero (S := S2048x128) hz, View.ld_unit_zero (S := S1024x128) hz,
    View.ld_unit_zero (S := S1024x32) hz, View.ld_unit_zero (S := S128x128) hz, View.ld_unit_zero (S := S32x128) hz,
    View.ld_unit_zero (S := S1x128) hz]
  rw [KBody.pay2_eq]
  funext j
  obtain ⟨p, q, rfl⟩ : ∃ (p : Fin 1024) (q : Fin 128), j = ix2 p q := ⟨j 0, j 1, eq_ix2 j⟩
  rw [View.read_apply]
  have hemb : ((cfg2.win 8).blk t).view.emb (ix2 p q) = ix2 (rowE t.val p) q := by
    funext a; apply Fin.ext
    match a with
    | ⟨0, _⟩ =>
      show win2_8.index t (0 : Fin 2) * 1024 + 1 * p.val = (t.val * 1024 + p.val) % 32768
      have := p.isLt; omega
    | ⟨1, _⟩ =>
      show win2_8.index t (1 : Fin 2) * 128 + 1 * q.val = q.val
      omega
  rw [hemb]
  show KBody.body2 (iblk2 V c 0 t) (iblk2 V c 1 t) (iblk2 V c 2 t) (iblk2 V c 3 t) (iblk2 V c 4 t) (iblk2 V c 5 t) (iblk2 V c 6 t)
      (iblk2 V c 7 t) (ix2 p q) = _
  rw [KBody.body2_apply]
  unfold outOf
  refine congrArg Spec.ls (Finset.sum_congr rfl fun k _ => ?_)
  rw [iblk_wo, iblk_bias]
  refine congrArg (fun x => Spec.ls (x + _) * _) ?_
  refine congrArg₂ (· + ·) (Finset.sum_congr rfl fun j _ => ?_) (Finset.sum_congr rfl fun j _ => ?_)
  · rw [iblk_wa, iblk_msg]
    refine congrArg (fun x => (x - _) * _) (Finset.sum_congr rfl fun n _ => ?_)
    rw [iblk_maskT, iblk_node]
  · rw [iblk_feat, iblk_wf]

/-- The output array after the launch: the 32 blocks of rows cover it. -/
theorem final (c : Dev nD) : (dat2 V c).arrAt 8 cfg2.N
    = outOf (V c main_arg3) (V c main_v4) (V c main_v3) (V c main_arg1) (V c main_v6) (V c main_v8) (V c main_v9) (V c main_v10) :=
  (dat2 V c).arrAt_eq_of_cover 8 _ (fun t _ => flushed_eq V c t) fun i => by
    have hi0 : (i 0).val < 32768 := (i 0).isLt
    have hi1 : (i 1).val < 128 := (i 1).isLt
    have hN : cfg2.N = 32 := N_2
    refine ⟨⟨(i 0).val / 1024, by rw [hN]; omega⟩, flush2_8 _, ?_⟩
    obtain ⟨-, -, -, -, -, -, -, -, -, -, -, -, -, -, -, -, e0, e1⟩ := idx_facts ⟨(i 0).val / 1024, by rw [hN]; omega⟩
    rw [mem_blk]
    intro a
    match a with
    | ⟨0, _⟩ =>
      show win2_8.index _ (0 : Fin 2) * 1024 ≤ (i 0).val ∧ (i 0).val < win2_8.index _ (0 : Fin 2) * 1024 + 1024
      rw [e0]; show (i 0).val / 1024 * 1024 ≤ (i 0).val ∧ (i 0).val < (i 0).val / 1024 * 1024 + 1024
      omega
    | ⟨1, _⟩ =>
      show win2_8.index _ (1 : Fin 2) * 128 ≤ (i 1).val ∧ (i 1).val < win2_8.index _ (1 : Fin 2) * 128 + 128
      rw [e1]; omega

end Region

end Cert.KernelIdeal.K2

end
-- ==== Proof.Glue.lean ====
/-
  The last stage on its own: from ANY message array S and node array Nd, the edge's received part
  (∑ n, maskT e n · Nd n j) − S e j goes through the aggregation perceptron with the edge's features. When S and Nd are
  the layer's own messages and node sums this is the layer's output, by unfolding the definitions.
-/
import proofs.«111909_j6468220748479_2_alg».proof.Proof.Spec

noncomputable section

namespace Cert.Spec

open Idealize.ShloMosaic Idealize.ShloMosaic.ValueIdx
open scoped BigOperators

/-- The output computed from a message array and a node array. -/
def outFrom (S : Mat 32768 128) (Nd : Mat 2048 128) (feat : Mat 32768 32) (maskT : Mat 32768 2048) (W1a : Mat 128 160)
    (b1a : Row 128) (W2a : Mat 128 128) : Mat 32768 128 :=
  fun i => ls (∑ k : Fin 128, ls (((∑ j : Fin 128, ((∑ n : Fin 2048, maskT (ix2 (i 0) n) * Nd (ix2 n j)) - S (ix2 (i 0) j))
        * W1a (ix2 k (⟨j.val, by have := j.isLt; omega⟩ : Fin 160)))
      + ∑ j : Fin 32, feat (ix2 (i 0) j) * W1a (ix2 k (⟨128 + j.val, by have := j.isLt; omega⟩ : Fin 160)))
    + b1a (ix1 k)) * W2a (ix2 (i 1) k))

/-- From the layer's own messages and node sums it is the layer's output. -/
theorem outFrom_layer (state : Mat 32768 128) (feat : Mat 32768 32) (mask : Mat 2048 32768) (maskT : Mat 32768 2048)
    (W1m : Mat 128 128) (b1m : Row 128) (W2m : Mat 128 128) (W1a : Mat 128 160) (b1a : Row 128) (W2a : Mat 128 128) :
    outFrom (msgArr state W1m b1m W2m) (nodeArr state mask W1m b1m W2m) feat maskT W1a b1a W2a
      = outArr state feat mask maskT W1m b1m W2m W1a b1a W2a := rfl

end Cert.Spec

end
-- ==== Proof.K2Host.lean ====
/-
  The third launch's host side. The launch's result is one function of the eight arrays it reads. Four of them are
  prepared by host operations just before it: the first aggregation weight matrix (128 by 160) cut into its first 128 and
  last 32 columns, each transposed; its bias as a one-row matrix; the second weight matrix transposed. Read at an entry,
  these are the launched parameters at the swapped index (column j, resp. 128 + j). The features and the transposed
  incidence matrix are as launched, the messages and the node sums as the second launch left them. With these readings the
  launch's function is the specification's last stage, sum by sum.
-/
import proofs.«111909_j6468220748479_2_alg».proof.Proof.Gen.KernelIdeal.Frame
import proofs.«111909_j6468220748479_2_alg».proof.Proof.K2
import proofs.«111909_j6468220748479_2_alg».proof.Proof.Glue
import proofs.«111909_j6468220748479_2_alg».proof.Proof.LibBroadcasts
import Idealize.ShloMosaic.Lib.ValueIdx
import Idealize.ShloMosaic.Lib.ValueLayout
import Idealize.ShloMosaic.Lib.Pipeline.Value
import Idealize.ShloMosaic.Lib.Tactic

set_option maxRecDepth 16384

noncomputable section

namespace Cert.KernelIdeal.K2Host

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen
open scoped BigOperators

/-! ## The parameter arrays as the launch reads them, at an entry -/

/-- The first 128 columns of the aggregation weight matrix, cut out and transposed: at (j, k) the matrix at (k, j). -/
theorem w1aT_apply (a7 : Spec.Mat 128 160) (j k : Fin 128) :
    transpose S128x128 [1, 0] (extractStridedSlice S128x128 ![0, 0] a7 slices_S128x160_S128x128_0_0)
        transposes_S128x128_S128x128_1_0 (ix2 j k)
      = a7 (ix2 k (⟨j.val, by have := j.isLt; omega⟩ : Fin 160)) := by
  rw [transpose_ix2_apply]
  exact slice2_axis1_apply 0 a7 slices_S128x160_S128x128_0_0 k j _ (by show j.val = 0 + j.val; omega)

/-- Its last 32 columns, cut out and transposed: at (j, k) the matrix at (k, 128 + j). -/
theorem w1bT_apply (a7 : Spec.Mat 128 160) (j : Fin 32) (k : Fin 128) :
    transpose S32x128 [1, 0] (extractStridedSlice S128x32 ![0, 128] a7 slices_S128x160_S128x32_0_128)
        transposes_S128x32_S32x128_1_0 (ix2 j k)
      = a7 (ix2 k (⟨128 + j.val, by have := j.isLt; omega⟩ : Fin 160)) := by
  rw [transpose_ix2_apply]
  exact slice2_axis1_apply 128 a7 slices_S128x160_S128x32_0_128 k j _ rfl

/-- The bias as a one-row matrix: at (0, k) the bias at k. -/
theorem bias_row_apply (a8 : Spec.Row 128) (k : Fin 128) :
    shapeCast S1x128 a8 shapeCasts_S128_S1x128 (ix2 0 k) = a8 (ix1 k) :=
  Cert.LibBroadcasts.row_cast_apply shapeCasts_S128_S1x128 a8 0 k

/-- The second weight matrix transposed: at (k, c) the matrix at (c, k). -/
theorem w2aT_apply (a9 : Spec.Mat 128 128) (k c : Fin 128) :
    transpose S128x128 [1, 0] a9 transposes_S128x128_S128x128_1_0 (ix2 k c) = a9 (ix2 c k) :=
  transpose_ix2_apply a9 transposes_S128x128_S128x128_1_0 k c

/-- The launch's function of its eight arrays, at the four parameter arrays as prepared above, is the specification's
    last stage of the message array, the node array, the features, the transposed incidence matrix and the parameters. -/
theorem outOf_host (MT : Spec.Mat 32768 2048) (Nd : Spec.Mat 2048 128) (S : Spec.Mat 32768 128) (Ft : Spec.Mat 32768 32)
    (a7 : Spec.Mat 128 160) (a8 : Spec.Row 128) (a9 : Spec.Mat 128 128) :
    K2.outOf MT Nd S Ft
        (transpose S128x128 [1, 0] (extractStridedSlice S128x128 ![0, 0] a7 slices_S128x160_S128x128_0_0)
          transposes_S128x128_S128x128_1_0)
        (transpose S32x128 [1, 0] (extractStridedSlice S128x32 ![0, 128] a7 slices_S128x160_S128x32_0_128)
          transposes_S128x32_S32x128_1_0)
        (shapeCast S1x128 a8 shapeCasts_S128_S1x128)
        (transpose S128x128 [1, 0] a9 transposes_S128x128_S128x128_1_0)
      = Spec.outFrom S Nd Ft MT a7 a8 a9 := by
  funext i
  unfold K2.outOf Spec.outFrom
  refine congrArg Spec.ls (Finset.sum_congr rfl fun k _ => ?_)
  refine congrArg₂ (fun s w => Spec.ls s * w) ?_ (w2aT_apply a9 k (i 1))
  refine congrArg₂ (· + ·) (congrArg₂ (· + ·) (Finset.sum_congr rfl fun j _ => ?_) (Finset.sum_congr rfl fun j _ => ?_))
    (bias_row_apply a8 k)
  · exact congrArg (fun w => ((∑ n : Fin 2048, MT (ix2 (i 0) n) * Nd (ix2 n j)) - S (ix2 (i 0) j)) * w) (w1aT_apply a7 j k)
  · exact congrArg (fun w => Ft (ix2 (i 0) j) * w) (w1bT_apply a7 j k)

/-! ## The eight arrays as the third launch finds them -/

variable (m : (ℓ : Loc nD τ sig) → Buf (Elt Ideal) ℓ) (ρ : Dev nD → PrngReg)

/-- An argument no launch writes and no host operation before the third launch writes is, when that stretch of
    host operations starts, as launched: the features … -/
theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- … the transposed incidence matrix … -/
theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- … the first aggregation weight matrix … -/
theorem W3_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- … its bias … -/
theorem W3_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- … and the second weight matrix. -/
theorem W3_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-- The features reach the third launch as launched … -/
theorem entry_arg1 (c : Dev nD) : V4 m ρ c main_arg1 = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := W3_arg1 m ρ c

/-- … and so does the transposed incidence matrix. -/
theorem entry_arg3 (c : Dev nD) : V4 m ρ c main_arg3 = m ((c : Thread nD τ).loc main_arg3) :=
  calc W4 m ρ c (Proc.devRef .tc main_arg3)
    _ = W3 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := W3_arg3 m ρ c

/-- The four parameter arrays as the host operations before the third launch prepare them: the first 128 columns of the
    first weight matrix, transposed … -/
theorem entry_w1aT (c : Dev nD) : (V4 m ρ c main_v6 : S128x128.Idx → EReal)
    = transpose S128x128 [1, 0] (extractStridedSlice S128x128 ![0, 0] (m ((c : Thread nD τ).loc main_arg7))
        slices_S128x160_S128x128_0_0) transposes_S128x128_S128x128_1_0 := by
  rw [← W3_arg7 m ρ c]
  dsimp only [Gen.V4, Gen.W4, Gen.hostOps2]; after_results

/-- … its last 32 columns, transposed … -/
theorem entry_w1bT (c : Dev nD) : (V4 m ρ c main_v8 : S32x128.Idx → EReal)
    = transpose S32x128 [1, 0] (extractStridedSlice S128x32 ![0, 128] (m ((c : Thread nD τ).loc main_arg7))
        slices_S128x160_S128x32_0_128) transposes_S128x32_S32x128_1_0 := by
  rw [← W3_arg7 m ρ c]
  dsimp only [Gen.V4, Gen.W4, Gen.hostOps2]; after_results

/-- … the bias as a one-row matrix … -/
theorem entry_bias_row (c : Dev nD) : (V4 m ρ c main_v9 : S1x128.Idx → EReal)
    = shapeCast S1x128 (m ((c : Thread nD τ).loc main_arg8)) shapeCasts_S128_S1x128 := by
  rw [← W3_arg8 m ρ c]
  dsimp only [Gen.V4, Gen.W4, Gen.hostOps2]; after_results; rfl

/-- … and the second weight matrix, transposed. -/
theorem entry_w2aT (c : Dev nD) : (V4 m ρ c main_v10 : S128x128.Idx → EReal)
    = transpose S128x128 [1, 0] (m ((c : Thread nD τ).loc main_arg9)) transposes_S128x128_S128x128_1_0 := by
  rw [← W3_arg9 m ρ c]
  dsimp only [Gen.V4, Gen.W4, Gen.hostOps2]; after_results

/-- The messages and the node sums reach the third launch as the second launch left them: the host operations in
    between write neither. -/
theorem entry_v3 (c : Dev nD) : V4 m ρ c main_v3 = W3 m ρ c (Proc.devRef .tc main_v3) :=
  StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- (The node sums.) -/
theorem entry_v4 (c : Dev nD) : V4 m ρ c main_v4 = W3 m ρ c (Proc.devRef .tc main_v4) :=
  StableHlo.after_of_forall_not_mem (b := Proc.devRef .tc main_v4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- What the third launch leaves in its result buffer. -/
theorem out_array (c : Dev nD) :
    W5 m ρ c (Proc.devRef .tc main_v11)
      = Spec.outFrom (W3 m ρ c (Proc.devRef .tc main_v3)) (W3 m ρ c (Proc.devRef .tc main_v4))
          (m ((c : Thread nD τ).loc main_arg1)) (m ((c : Thread nD τ).loc main_arg3))
          (m ((c : Thread nD τ).loc main_arg7)) (m ((c : Thread nD τ).loc main_arg8))
          (m ((c : Thread nD τ).loc main_arg9)) := by
  refine ((W5_arr m ρ c 8).trans (K2.final (V4 m ρ) c)).trans ?_
  rw [entry_arg3 m ρ c, entry_arg1 m ρ c, entry_v3 m ρ c, entry_v4 m ρ c, entry_w1aT m ρ c, entry_w1bT m ρ c,
    entry_bias_row m ρ c, entry_w2aT m ρ c]
  exact outOf_host _ _ _ _ _ _ _

end Cert.KernelIdeal.K2Host

end
-- ==== Proof.KValue.lean ====
/-
  The kernel program's result. The last boundary's contents at the result buffer are the third launch's output from
  the messages and node sums the second boundary holds; those are the first launch's messages and their node sums
  against the launched incidence matrix; so the result is the layer's output of the ten launched arrays.
-/
import proofs.«111909_j6468220748479_2_alg».proof.Proof.KMid
import proofs.«111909_j6468220748479_2_alg».proof.Proof.K2Host
import proofs.«111909_j6468220748479_2_alg».proof.Proof.Glue

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The node sums of the launched incidence matrix and the layer's messages are the layer's node sums. -/
theorem nodeOf_layer (state : Spec.Mat 32768 128) (mask : Spec.Mat 2048 32768) (W1m : Spec.Mat 128 128) (b1m : Spec.Row 128)
    (W2m : Spec.Mat 128 128) : K1.nodeOf mask (Spec.msgArr state W1m b1m W2m) = Spec.nodeArr state mask W1m b1m W2m := rfl

/-- The result buffer's final contents. -/
theorem value (c : Dev nD) : W5 m ρ c (Proc.devRef .tc main_v11)
    = Spec.outArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  rw [K2Host.out_array m ρ c, KMid.msg_kept m ρ c, K0.msg_array m ρ c, KMid.node_array m ρ c, nodeOf_layer]
  exact Spec.outFrom_layer _ _ _ _ _ _ _ _ _ _

end Cert.KernelIdeal.KValue

end
-- ==== Proof.RefTerm.lean ====
/-
  The reference's result as one term of its ten argument arrays: the host operations composed in program order.
  The logarithm of the logistic function is applied four times, each time as minus the softplus of the negated
  operand, the softplus with its "d ≠ d" guard.
-/
import proofs.«111909_j6468220748479_2_alg».proof.ReferenceIdeal
import Idealize.ShloMosaic.PureOps.Ideal

noncomputable section

namespace Cert.ReferenceIdeal.RefTerm

open Idealize.ShloMosaic Cert.ReferenceIdeal Cert.ReferenceIdeal.Facts₀

variable [Facts]

/-- The zero array every softplus compares against. -/
def zeros : FVec Ideal S32768x128 .f32 :=
  broadcastInDim S32768x128 ![] bcast_S_S32768x128 (constant (F := Ideal) S_ .f32 0x00000000#32)

/-- softplus y = max y 0 + log (1 + exp (−|y − 0|)), behind the guard. -/
def softplusV (y : FVec Ideal S32768x128 .f32) : FVec Ideal S32768x128 .f32 :=
  select (cmpf .une (subf y zeros) (subf y zeros)) (addf y zeros)
    (addf (maximumf y zeros) (Host.log1p (Host.exp (Host.negf (Host.absf (subf y zeros))))))

/-- log σ(x) = −softplus(−x), array-wise. -/
def lsV (x : FVec Ideal S32768x128 .f32) : FVec Ideal S32768x128 .f32 := Host.negf (softplusV (Host.negf x))

/-- A bias vector spread over the 32768 rows. -/
def biasV (b : FVec Ideal S128 .f32) : FVec Ideal S32768x128 .f32 :=
  broadcastInDim S32768x128 ![0, 1] bcast_S1x128_S32768x128_0_1 (broadcastInDim S1x128 ![1] bcast_S128_S1x128_1 b)

/-- The edge messages. -/
def msgV (a0 : FVec Ideal S32768x128 .f32) (a4 : FVec Ideal S128x128 .f32) (a5 : FVec Ideal S128 .f32)
    (a6 : FVec Ideal S128x128 .f32) : FVec Ideal S32768x128 .f32 :=
  lsV (Host.dotGeneral dot_S32768x128_S128x128_S32768x128_1_0_0_1_n_n none
    (lsV (addf (Host.dotGeneral dot_S32768x128_S128x128_S32768x128_1_0_0_1_n_n none a0
      (transpose S128x128 [1, 0] a4 transposes_S128x128_S128x128_1_0)) (biasV a5)))
    (transpose S128x128 [1, 0] a6 transposes_S128x128_S128x128_1_0))

/-- What each edge receives, its own message removed. -/
def nbrV (a2 : FVec Ideal S2048x32768 .f32) (a3 : FVec Ideal S32768x2048 .f32) (s : FVec Ideal S32768x128 .f32) :
    FVec Ideal S32768x128 .f32 :=
  subf (Host.dotGeneral dot_S32768x2048_S2048x128_S32768x128_1_0_0_1_n_n none a3
    (Host.dotGeneral dot_S2048x32768_S32768x128_S2048x128_1_0_0_1_n_n none a2 s)) s

/-- The output from the received part, the features and the aggregation perceptron's parameters. -/
def outV (g : FVec Ideal S32768x128 .f32) (a1 : FVec Ideal S32768x32 .f32) (a7 : FVec Ideal S128x160 .f32)
    (a8 : FVec Ideal S128 .f32) (a9 : FVec Ideal S128x128 .f32) : FVec Ideal S32768x128 .f32 :=
  lsV (Host.dotGeneral dot_S32768x128_S128x128_S32768x128_1_0_0_1_n_n none
    (lsV (addf (Host.dotGeneral dot_S32768x160_S160x128_S32768x128_1_0_0_1_n_n none
      (concatenate S32768x160 1 [⟨S32768x128, g⟩, ⟨S32768x32, a1⟩] concatenates_S32768x128_S32768x32_S32768x160_d1)
      (transpose S160x128 [1, 0] a7 transposes_S128x160_S160x128_1_0)) (biasV a8)))
    (transpose S128x128 [1, 0] a9 transposes_S128x128_S128x128_1_0))

/-- The reference's result. -/
def term (a0 : FVec Ideal S32768x128 .f32) (a1 : FVec Ideal S32768x32 .f32) (a2 : FVec Ideal S2048x32768 .f32)
    (a3 : FVec Ideal S32768x2048 .f32) (a4 : FVec Ideal S128x128 .f32) (a5 : FVec Ideal S128 .f32)
    (a6 : FVec Ideal S128x128 .f32) (a7 : FVec Ideal S128x160 .f32) (a8 : FVec Ideal S128 .f32)
    (a9 : FVec Ideal S128x128 .f32) : FVec Ideal S32768x128 .f32 :=
  outV (nbrV a2 a3 (msgV a0 a4 a5 a6)) a1 a7 a8 a9

end Cert.ReferenceIdeal.RefTerm

end
-- ==== Proof.RefRun.lean ====
/-
  The reference program's run, written out: @main's host operations with the four calls of the
  log-sigmoid function (each a negation, the fourteen operations of softplus, a negation) put inline,
  as one list of eighty-two operations; the run of that list; and the contents it leaves in the result
  buffer, read back as the composed term of the ten argument arrays.
-/
import proofs.«111909_j6468220748479_2_alg».proof.ReferenceIdeal
import proofs.«111909_j6468220748479_2_alg».proof.Proof.RefTerm
import Idealize.ShloMosaic.Lib.StableHlo.Run
import Idealize.ShloMosaic.PureOps.Ideal

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable [Facts]

variable {F : FTy → Type} [FloatOps F]

/-- @main's eighty-two operations in order, the calls unfolded: each perceptron layer's operations, then the
    sixteen of its log-sigmoid over that call's buffers. -/
abbrev ops : List (HloOp τ sig (Elt F)) :=
  [ unary main_arg4 main_v0 ((transpose S128x128 [1, 0] · transposes_S128x128_S128x128_1_0) : (⟨S128x128, .f32⟩ : BufTy).Contents (Elt F) → (⟨S128x128, .f32⟩ : BufTy).Contents (Elt F)),
    binary main_arg0 main_v0 main_v1 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_arg5 main_v2 (broadcastInDim S1x128 ![1] bcast_S128_S1x128_1 : (⟨S128, .f32⟩ : BufTy).Contents (Elt F) → (⟨S1x128, .f32⟩ : BufTy).Contents (Elt F)),
    unary main_v2 main_v3 (broadcastInDim S32768x128 ![0, 1] bcast_S1x128_S32768x128_0_1 : (⟨S1x128, .f32⟩ : BufTy).Contents (Elt F) → (⟨S32768x128, .f32⟩ : BufTy).Contents (Elt F)),
    binary main_v1 main_v3 main_v4 (addf : (⟨S32768x128, .f32⟩ : BufTy).Contents (Elt F) → (⟨S32768x128, .f32⟩ : BufTy).Contents (Elt F) → (⟨S32768x128, .f32⟩ : BufTy).Contents (Elt F)),
    TRef.unary (.of main_v4) main_call0.v0 Host.negf,
    TRef.nullary main_call0.call0.cst (constant S_ .f32 0x00000000#32),
    TRef.unary main_call0.call0.cst main_call0.call0.v0 (broadcastInDim S32768x128 ![] bcast_S_S32768x128),
    TRef.binary main_call0.v0 main_call0.call0.v0 main_call0.call0.v1 maximumf,
    TRef.unary main_call0.call0.cst main_call0.call0.v2 (broadcastInDim S32768x128 ![] bcast_S_S32768x128),
    TRef.binary main_call0.v0 main_call0.call0.v2 main_call0.call0.v3 subf,
    TRef.binary main_call0.call0.v3 main_call0.call0.v3 main_call0.call0.v4 (cmpf .une),
    TRef.unary main_call0.call0.cst main_call0.call0.v5 (broadcastInDim S32768x128 ![] bcast_S_S32768x128),
    TRef.binary main_call0.v0 main_call0.call0.v5 main_call0.call0.v6 addf,
    TRef.unary main_call0.call0.v3 main_call0.call0.v7 Host.absf,
    TRef.unary main_call0.call0.v7 main_call0.call0.v8 Host.negf,
    TRef.unary main_call0.call0.v8 main_call0.call0.v9 Host.exp,
    TRef.unary main_call0.call0.v9 main_call0.call0.v10 Host.log1p,
    TRef.binary main_call0.call0.v1 main_call0.call0.v10 main_call0.call0.v11 addf,
    TRef.ternary main_call0.call0.v4 main_call0.call0.v6 main_call0.call0.v11 main_call0.call0.v12 select,
    TRef.unary main_call0.call0.v12 main_call0.v2 Host.negf,
    unary main_arg6 main_v6 ((transpose S128x128 [1, 0] · transposes_S128x128_S128x128_1_0) : (⟨S128x128, .f32⟩ : BufTy).Contents (Elt F) → (⟨S128x128, .f32⟩ : BufTy).Contents (Elt F)),
    binary main_v5 main_v6 main_v7 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    TRef.unary (.of main_v7) main_call1.v0 Host.negf,
    TRef.nullary main_call1.call0.cst (constant S_ .f32 0x00000000#32),
    TRef.unary main_call1.call0.cst main_call1.call0.v0 (broadcastInDim S32768x128 ![] bcast_S_S32768x128),
    TRef.binary main_call1.v0 main_call1.call0.v0 main_call1.call0.v1 maximumf,
    TRef.unary main_call1.call0.cst main_call1.call0.v2 (broadcastInDim S32768x128 ![] bcast_S_S32768x128),
    TRef.binary main_call1.v0 main_call1.call0.v2 main_call1.call0.v3 subf,
    TRef.binary main_call1.call0.v3 main_call1.call0.v3 main_call1.call0.v4 (cmpf .une),
    TRef.unary main_call1.call0.cst main_call1.call0.v5 (broadcastInDim S32768x128 ![] bcast_S_S32768x128),
    TRef.binary main_call1.v0 main_call1.call0.v5 main_call1.call0.v6 addf,
    TRef.unary main_call1.call0.v3 main_call1.call0.v7 Host.absf,
    TRef.unary main_call1.call0.v7 main_call1.call0.v8 Host.negf,
    TRef.unary main_call1.call0.v8 main_call1.call0.v9 Host.exp,
    TRef.unary main_call1.call0.v9 main_call1.call0.v10 Host.log1p,
    TRef.binary main_call1.call0.v1 main_call1.call0.v10 main_call1.call0.v11 addf,
    TRef.ternary main_call1.call0.v4 main_call1.call0.v6 main_call1.call0.v11 main_call1.call0.v12 select,
    TRef.unary main_call1.call0.v12 main_call1.v2 Host.negf,
    binary main_arg2 main_v8 main_v9 ((fun l r => Host.dotGeneral dot_S2048x32768_S32768x128_S2048x128_1_0_0_1_n_n none l r) : (⟨S2048x32768, .f32⟩ : BufTy).Contents (Elt F) → (⟨S32768x128, .f32⟩ : BufTy).Contents (Elt F) → (⟨S2048x128, .f32⟩ : BufTy).Contents (Elt F)),
    binary main_arg3 main_v9 main_v10 ((fun l r => Host.dotGeneral dot_S32768x2048_S2048x128_S32768x128_1_0_0_1_n_n none l r) : (⟨S32768x2048, .f32⟩ : BufTy).Contents (Elt F) → (⟨S2048x128, .f32⟩ : BufTy).Contents (Elt F) → (⟨S32768x128, .f32⟩ : BufTy).Contents (Elt F)),
    binary main_v10 main_v8 main_v11 (subf : (⟨S32768x128, .f32⟩ : BufTy).Contents (Elt F) → (⟨S32768x128, .f32⟩ : BufTy).Contents (Elt F) → (⟨S32768x128, .f32⟩ : BufTy).Contents (Elt F)),
    binary main_v11 main_arg1 main_v12 ((fun a b => concatenate S32768x160 1 [⟨S32768x128, a⟩, ⟨S32768x32, b⟩] concatenates_S32768x128_S32768x32_S32768x160_d1) : (⟨S32768x128, .f32⟩ : BufTy).Contents (Elt F) → (⟨S32768x32, .f32⟩ : BufTy).Contents (Elt F) → (⟨S32768x160, .f32⟩ : BufTy).Contents (Elt F)),
    unary main_arg7 main_v13 ((transpose S160x128 [1, 0] · transposes_S128x160_S160x128_1_0) : (⟨S128x160, .f32⟩ : BufTy).Contents (Elt F) → (⟨S160x128, .f32⟩ : BufTy).Contents (Elt F)),
    binary main_v12 main_v13 main_v14 ((fun l r => Host.dotGeneral dot_S32768x160_S160x128_S32768x128_1_0_0_1_n_n none l r) : (⟨S32768x160, .f32⟩ : BufTy).Contents (Elt F) → (⟨S160x128, .f32⟩ : BufTy).Contents (Elt F) → (⟨S32768x128, .f32⟩ : BufTy).Contents (Elt F)),
    unary main_arg8 main_v15 (broadcastInDim S1x128 ![1] bcast_S128_S1x128_1 : (⟨S128, .f32⟩ : BufTy).Contents (Elt F) → (⟨S1x128, .f32⟩ : BufTy).Contents (Elt F)),
    unary main_v15 main_v16 (broadcastInDim S32768x128 ![0, 1] bcast_S1x128_S32768x128_0_1 : (⟨S1x128, .f32⟩ : BufTy).Contents (Elt F) → (⟨S32768x128, .f32⟩ : BufTy).Contents (Elt F)),
    binary main_v14 main_v16 main_v17 (addf : (⟨S32768x128, .f32⟩ : BufTy).Contents (Elt F) → (⟨S32768x128, .f32⟩ : BufTy).Contents (Elt F) → (⟨S32768x128, .f32⟩ : BufTy).Contents (Elt F)),
    TRef.unary (.of main_v17) main_call2.v0 Host.negf,
    TRef.nullary main_call2.call0.cst (constant S_ .f32 0x00000000#32),
    TRef.unary main_call2.call0.cst main_call2.call0.v0 (broadcastInDim S32768x128 ![] bcast_S_S32768x128),
    TRef.binary main_call2.v0 main_call2.call0.v0 main_call2.call0.v1 maximumf,
    TRef.unary main_call2.call0.cst main_call2.call0.v2 (broadcastInDim S32768x128 ![] bcast_S_S32768x128),
    TRef.binary main_call2.v0 main_call2.call0.v2 main_call2.call0.v3 subf,
    TRef.binary main_call2.call0.v3 main_call2.call0.v3 main_call2.call0.v4 (cmpf .une),
    TRef.unary main_call2.call0.cst main_call2.call0.v5 (broadcastInDim S32768x128 ![] bcast_S_S32768x128),
    TRef.binary main_call2.v0 main_call2.call0.v5 main_call2.call0.v6 addf,
    TRef.unary main_call2.call0.v3 main_call2.call0.v7 Host.absf,
    TRef.unary main_call2.call0.v7 main_call2.call0.v8 Host.negf,
    TRef.unary main_call2.call0.v8 main_call2.call0.v9 Host.exp,
    TRef.unary main_call2.call0.v9 main_call2.call0.v10 Host.log1p,
    TRef.binary main_call2.call0.v1 main_call2.call0.v10 main_call2.call0.v11 addf,
    TRef.ternary main_call2.call0.v4 main_call2.call0.v6 main_call2.call0.v11 main_call2.call0.v12 select,
    TRef.unary main_call2.call0.v12 main_call2.v2 Host.negf,
    unary main_arg9 main_v19 ((transpose S128x128 [1, 0] · transposes_S128x128_S128x128_1_0) : (⟨S128x128, .f32⟩ : BufTy).Contents (Elt F) → (⟨S128x128, .f32⟩ : BufTy).Contents (Elt F)),
    binary main_v18 main_v19 main_v20 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    TRef.unary (.of main_v20) main_call3.v0 Host.negf,
    TRef.nullary main_call3.call0.cst (constant S_ .f32 0x00000000#32),
    TRef.unary main_call3.call0.cst main_call3.call0.v0 (broadcastInDim S32768x128 ![] bcast_S_S32768x128),
    TRef.binary main_call3.v0 main_call3.call0.v0 main_call3.call0.v1 maximumf,
    TRef.unary main_call3.call0.cst main_call3.call0.v2 (broadcastInDim S32768x128 ![] bcast_S_S32768x128),
    TRef.binary main_call3.v0 main_call3.call0.v2 main_call3.call0.v3 subf,
    TRef.binary main_call3.call0.v3 main_call3.call0.v3 main_call3.call0.v4 (cmpf .une),
    TRef.unary main_call3.call0.cst main_call3.call0.v5 (broadcastInDim S32768x128 ![] bcast_S_S32768x128),
    TRef.binary main_call3.v0 main_call3.call0.v5 main_call3.call0.v6 addf,
    TRef.unary main_call3.call0.v3 main_call3.call0.v7 Host.absf,
    TRef.unary main_call3.call0.v7 main_call3.call0.v8 Host.negf,
    TRef.unary main_call3.call0.v8 main_call3.call0.v9 Host.exp,
    TRef.unary main_call3.call0.v9 main_call3.call0.v10 Host.log1p,
    TRef.binary main_call3.call0.v1 main_call3.call0.v10 main_call3.call0.v11 addf,
    TRef.ternary main_call3.call0.v4 main_call3.call0.v6 main_call3.call0.v11 main_call3.call0.v12 select,
    TRef.unary main_call3.call0.v12 main_call3.v2 Host.negf ]

set_option maxRecDepth 4096 in
set_option maxHeartbeats 1600000 in
/-- @main is that straight line: the functions' definitions unfolded at their calls, both sides one chain of
    steps once sequencing is reassociated. -/
theorem main_eq (c : Dev nD) : main (F := F) c = seq ops := by
  simp only [main, fn_log_sigmoid.body, fn_softplus.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., unary_bufs_sub .., unary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., unary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., binary_bufs_sub .., binary_bufs_sub .., binary_bufs_sub .., binary_bufs_sub .., unary_bufs_sub .., binary_bufs_sub .., unary_bufs_sub .., unary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., unary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub ..⟩

/-- From any memory with zero counters every weakly fair execution of @main terminates, and every final state
    has each buffer at the operations' fold over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold, one perceptron layer at a time

The fold over the operations is a left fold, so the list is cut into four consecutive stretches — a layer's
operations up to and including its log-sigmoid — and each stretch is read back from a variable incoming
valuation: what it leaves in the one buffer the next stretch reads, and that it leaves alone every buffer it
does not write. -/

/-- The fold over two lists in a row. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A buffer among a list's members is written inside the list's image. -/
theorem writes_sub_of_mem {y : Ref sig .tc} {W : List (Ref sig .tc)} (h : y ∈ W) :
    ({Proc.devRef (τ := τ) .tc y} : Finset (DevRef τ sig)) ⊆ (W.map (Proc.devRef (τ := τ) .tc)).toFinset := by
  rw [Finset.singleton_subset_iff, List.mem_toFinset]
  exact List.mem_map_of_mem h

/-- Stretch 1: the first message layer, through its log-sigmoid. -/
abbrev st1 : List (HloOp τ sig (Elt F)) :=
  [ unary main_arg4 main_v0 ((transpose S128x128 [1, 0] · transposes_S128x128_S128x128_1_0) : (⟨S128x128, .f32⟩ : BufTy).Contents (Elt F) → (⟨S128x128, .f32⟩ : BufTy).Contents (Elt F)),
    binary main_arg0 main_v0 main_v1 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_arg5 main_v2 (broadcastInDim S1x128 ![1] bcast_S128_S1x128_1 : (⟨S128, .f32⟩ : BufTy).Contents (Elt F) → (⟨S1x128, .f32⟩ : BufTy).Contents (Elt F)),
    unary main_v2 main_v3 (broadcastInDim S32768x128 ![0, 1] bcast_S1x128_S32768x128_0_1 : (⟨S1x128, .f32⟩ : BufTy).Contents (Elt F) → (⟨S32768x128, .f32⟩ : BufTy).Contents (Elt F)),
    binary main_v1 main_v3 main_v4 (addf : (⟨S32768x128, .f32⟩ : BufTy).Contents (Elt F) → (⟨S32768x128, .f32⟩ : BufTy).Contents (Elt F) → (⟨S32768x128, .f32⟩ : BufTy).Contents (Elt F)),
    TRef.unary (.of main_v4) main_call0.v0 Host.negf,
    TRef.nullary main_call0.call0.cst (constant S_ .f32 0x00000000#32),
    TRef.unary main_call0.call0.cst main_call0.call0.v0 (broadcastInDim S32768x128 ![] bcast_S_S32768x128),
    TRef.binary main_call0.v0 main_call0.call0.v0 main_call0.call0.v1 maximumf,
    TRef.unary main_call0.call0.cst main_call0.call0.v2 (broadcastInDim S32768x128 ![] bcast_S_S32768x128),
    TRef.binary main_call0.v0 main_call0.call0.v2 main_call0.call0.v3 subf,
    TRef.binary main_call0.call0.v3 main_call0.call0.v3 main_call0.call0.v4 (cmpf .une),
    TRef.unary main_call0.call0.cst main_call0.call0.v5 (broadcastInDim S32768x128 ![] bcast_S_S32768x128),
    TRef.binary main_call0.v0 main_call0.call0.v5 main_call0.call0.v6 addf,
    TRef.unary main_call0.call0.v3 main_call0.call0.v7 Host.absf,
    TRef.unary main_call0.call0.v7 main_call0.call0.v8 Host.negf,
    TRef.unary main_call0.call0.v8 main_call0.call0.v9 Host.exp,
    TRef.unary main_call0.call0.v9 main_call0.call0.v10 Host.log1p,
    TRef.binary main_call0.call0.v1 main_call0.call0.v10 main_call0.call0.v11 addf,
    TRef.ternary main_call0.call0.v4 main_call0.call0.v6 main_call0.call0.v11 main_call0.call0.v12 select,
    TRef.unary main_call0.call0.v12 main_call0.v2 Host.negf ]

/-- The buffers stretch 1 writes. -/
abbrev W1 : List (Ref sig .tc) :=
  [main_v0, main_v1, main_v2, main_v3, main_v4, main_call0_v0, main_call0_call0_cst, main_call0_call0_v0, main_call0_call0_v1, main_call0_call0_v2, main_call0_call0_v3, main_call0_call0_v4, main_call0_call0_v5, main_call0_call0_v6, main_call0_call0_v7, main_call0_call0_v8, main_call0_call0_v9, main_call0_call0_v10, main_call0_call0_v11, main_call0_v1, main_v5]

theorem st1_writes : (st1 : List (HloOp τ sig (Elt F))).Forall fun op => op.writes ⊆ (W1.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- Stretch 1 leaves alone every buffer it does not write. -/
theorem st1_frame (V : Valuation τ sig (Elt F)) {r : Ref sig .tc} (hr : r ∉ W1) :
    after st1 V (Proc.devRef .tc r) = V (Proc.devRef .tc r) :=
  after_of_writes_sub st1 V st1_writes hr

/-- Stretch 2: the second message layer, through its log-sigmoid. -/
abbrev st2 : List (HloOp τ sig (Elt F)) :=
  [ unary main_arg6 main_v6 ((transpose S128x128 [1, 0] · transposes_S128x128_S128x128_1_0) : (⟨S128x128, .f32⟩ : BufTy).Contents (Elt F) → (⟨S128x128, .f32⟩ : BufTy).Contents (Elt F)),
    binary main_v5 main_v6 main_v7 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    TRef.unary (.of main_v7) main_call1.v0 Host.negf,
    TRef.nullary main_call1.call0.cst (constant S_ .f32 0x00000000#32),
    TRef.unary main_call1.call0.cst main_call1.call0.v0 (broadcastInDim S32768x128 ![] bcast_S_S32768x128),
    TRef.binary main_call1.v0 main_call1.call0.v0 main_call1.call0.v1 maximumf,
    TRef.unary main_call1.call0.cst main_call1.call0.v2 (broadcastInDim S32768x128 ![] bcast_S_S32768x128),
    TRef.binary main_call1.v0 main_call1.call0.v2 main_call1.call0.v3 subf,
    TRef.binary main_call1.call0.v3 main_call1.call0.v3 main_call1.call0.v4 (cmpf .une),
    TRef.unary main_call1.call0.cst main_call1.call0.v5 (broadcastInDim S32768x128 ![] bcast_S_S32768x128),
    TRef.binary main_call1.v0 main_call1.call0.v5 main_call1.call0.v6 addf,
    TRef.unary main_call1.call0.v3 main_call1.call0.v7 Host.absf,
    TRef.unary main_call1.call0.v7 main_call1.call0.v8 Host.negf,
    TRef.unary main_call1.call0.v8 main_call1.call0.v9 Host.exp,
    TRef.unary main_call1.call0.v9 main_call1.call0.v10 Host.log1p,
    TRef.binary main_call1.call0.v1 main_call1.call0.v10 main_call1.call0.v11 addf,
    TRef.ternary main_call1.call0.v4 main_call1.call0.v6 main_call1.call0.v11 main_call1.call0.v12 select,
    TRef.unary main_call1.call0.v12 main_call1.v2 Host.negf ]

/-- The buffers stretch 2 writes. -/
abbrev W2 : List (Ref sig .tc) :=
  [main_v6, main_v7, main_call1_v0, main_call1_call0_cst, main_call1_call0_v0, main_call1_call0_v1, main_call1_call0_v2, main_call1_call0_v3, main_call1_call0_v4, main_call1_call0_v5, main_call1_call0_v6, main_call1_call0_v7, main_call1_call0_v8, main_call1_call0_v9, main_call1_call0_v10, main_call1_call0_v11, main_call1_v1, main_v8]

theorem st2_writes : (st2 : List (HloOp τ sig (Elt F))).Forall fun op => op.writes ⊆ (W2.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- Stretch 2 leaves alone every buffer it does not write. -/
theorem st2_frame (V : Valuation τ sig (Elt F)) {r : Ref sig .tc} (hr : r ∉ W2) :
    after st2 V (Proc.devRef .tc r) = V (Proc.devRef .tc r) :=
  after_of_writes_sub st2 V st2_writes hr

/-- Stretch 3: the neighbour sums and the first aggregation layer, through its log-sigmoid. -/
abbrev st3 : List (HloOp τ sig (Elt F)) :=
  [ binary main_arg2 main_v8 main_v9 ((fun l r => Host.dotGeneral dot_S2048x32768_S32768x128_S2048x128_1_0_0_1_n_n none l r) : (⟨S2048x32768, .f32⟩ : BufTy).Contents (Elt F) → (⟨S32768x128, .f32⟩ : BufTy).Contents (Elt F) → (⟨S2048x128, .f32⟩ : BufTy).Contents (Elt F)),
    binary main_arg3 main_v9 main_v10 ((fun l r => Host.dotGeneral dot_S32768x2048_S2048x128_S32768x128_1_0_0_1_n_n none l r) : (⟨S32768x2048, .f32⟩ : BufTy).Contents (Elt F) → (⟨S2048x128, .f32⟩ : BufTy).Contents (Elt F) → (⟨S32768x128, .f32⟩ : BufTy).Contents (Elt F)),
    binary main_v10 main_v8 main_v11 (subf : (⟨S32768x128, .f32⟩ : BufTy).Contents (Elt F) → (⟨S32768x128, .f32⟩ : BufTy).Contents (Elt F) → (⟨S32768x128, .f32⟩ : BufTy).Contents (Elt F)),
    binary main_v11 main_arg1 main_v12 ((fun a b => concatenate S32768x160 1 [⟨S32768x128, a⟩, ⟨S32768x32, b⟩] concatenates_S32768x128_S32768x32_S32768x160_d1) : (⟨S32768x128, .f32⟩ : BufTy).Contents (Elt F) → (⟨S32768x32, .f32⟩ : BufTy).Contents (Elt F) → (⟨S32768x160, .f32⟩ : BufTy).Contents (Elt F)),
    unary main_arg7 main_v13 ((transpose S160x128 [1, 0] · transposes_S128x160_S160x128_1_0) : (⟨S128x160, .f32⟩ : BufTy).Contents (Elt F) → (⟨S160x128, .f32⟩ : BufTy).Contents (Elt F)),
    binary main_v12 main_v13 main_v14 ((fun l r => Host.dotGeneral dot_S32768x160_S160x128_S32768x128_1_0_0_1_n_n none l r) : (⟨S32768x160, .f32⟩ : BufTy).Contents (Elt F) → (⟨S160x128, .f32⟩ : BufTy).Contents (Elt F) → (⟨S32768x128, .f32⟩ : BufTy).Contents (Elt F)),
    unary main_arg8 main_v15 (broadcastInDim S1x128 ![1] bcast_S128_S1x128_1 : (⟨S128, .f32⟩ : BufTy).Contents (Elt F) → (⟨S1x128, .f32⟩ : BufTy).Contents (Elt F)),
    unary main_v15 main_v16 (broadcastInDim S32768x128 ![0, 1] bcast_S1x128_S32768x128_0_1 : (⟨S1x128, .f32⟩ : BufTy).Contents (Elt F) → (⟨S32768x128, .f32⟩ : BufTy).Contents (Elt F)),
    binary main_v14 main_v16 main_v17 (addf : (⟨S32768x128, .f32⟩ : BufTy).Contents (Elt F) → (⟨S32768x128, .f32⟩ : BufTy).Contents (Elt F) → (⟨S32768x128, .f32⟩ : BufTy).Contents (Elt F)),
    TRef.unary (.of main_v17) main_call2.v0 Host.negf,
    TRef.nullary main_call2.call0.cst (constant S_ .f32 0x00000000#32),
    TRef.unary main_call2.call0.cst main_call2.call0.v0 (broadcastInDim S32768x128 ![] bcast_S_S32768x128),
    TRef.binary main_call2.v0 main_call2.call0.v0 main_call2.call0.v1 maximumf,
    TRef.unary main_call2.call0.cst main_call2.call0.v2 (broadcastInDim S32768x128 ![] bcast_S_S32768x128),
    TRef.binary main_call2.v0 main_call2.call0.v2 main_call2.call0.v3 subf,
    TRef.binary main_call2.call0.v3 main_call2.call0.v3 main_call2.call0.v4 (cmpf .une),
    TRef.unary main_call2.call0.cst main_call2.call0.v5 (broadcastInDim S32768x128 ![] bcast_S_S32768x128),
    TRef.binary main_call2.v0 main_call2.call0.v5 main_call2.call0.v6 addf,
    TRef.unary main_call2.call0.v3 main_call2.call0.v7 Host.absf,
    TRef.unary main_call2.call0.v7 main_call2.call0.v8 Host.negf,
    TRef.unary main_call2.call0.v8 main_call2.call0.v9 Host.exp,
    TRef.unary main_call2.call0.v9 main_call2.call0.v10 Host.log1p,
    TRef.binary main_call2.call0.v1 main_call2.call0.v10 main_call2.call0.v11 addf,
    TRef.ternary main_call2.call0.v4 main_call2.call0.v6 main_call2.call0.v11 main_call2.call0.v12 select,
    TRef.unary main_call2.call0.v12 main_call2.v2 Host.negf ]

/-- The buffers stretch 3 writes. -/
abbrev W3 : List (Ref sig .tc) :=
  [main_v9, main_v10, main_v11, main_v12, main_v13, main_v14, main_v15, main_v16, main_v17, main_call2_v0, main_call2_call0_cst, main_call2_call0_v0, main_call2_call0_v1, main_call2_call0_v2, main_call2_call0_v3, main_call2_call0_v4, main_call2_call0_v5, main_call2_call0_v6, main_call2_call0_v7, main_call2_call0_v8, main_call2_call0_v9, main_call2_call0_v10, main_call2_call0_v11, main_call2_v1, main_v18]

theorem st3_writes : (st3 : List (HloOp τ sig (Elt F))).Forall fun op => op.writes ⊆ (W3.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- Stretch 3 leaves alone every buffer it does not write. -/
theorem st3_frame (V : Valuation τ sig (Elt F)) {r : Ref sig .tc} (hr : r ∉ W3) :
    after st3 V (Proc.devRef .tc r) = V (Proc.devRef .tc r) :=
  after_of_writes_sub st3 V st3_writes hr

/-- Stretch 4: the second aggregation layer, through its log-sigmoid. -/
abbrev st4 : List (HloOp τ sig (Elt F)) :=
  [ unary main_arg9 main_v19 ((transpose S128x128 [1, 0] · transposes_S128x128_S128x128_1_0) : (⟨S128x128, .f32⟩ : BufTy).Contents (Elt F) → (⟨S128x128, .f32⟩ : BufTy).Contents (Elt F)),
    binary main_v18 main_v19 main_v20 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    TRef.unary (.of main_v20) main_call3.v0 Host.negf,
    TRef.nullary main_call3.call0.cst (constant S_ .f32 0x00000000#32),
    TRef.unary main_call3.call0.cst main_call3.call0.v0 (broadcastInDim S32768x128 ![] bcast_S_S32768x128),
    TRef.binary main_call3.v0 main_call3.call0.v0 main_call3.call0.v1 maximumf,
    TRef.unary main_call3.call0.cst main_call3.call0.v2 (broadcastInDim S32768x128 ![] bcast_S_S32768x128),
    TRef.binary main_call3.v0 main_call3.call0.v2 main_call3.call0.v3 subf,
    TRef.binary main_call3.call0.v3 main_call3.call0.v3 main_call3.call0.v4 (cmpf .une),
    TRef.unary main_call3.call0.cst main_call3.call0.v5 (broadcastInDim S32768x128 ![] bcast_S_S32768x128),
    TRef.binary main_call3.v0 main_call3.call0.v5 main_call3.call0.v6 addf,
    TRef.unary main_call3.call0.v3 main_call3.call0.v7 Host.absf,
    TRef.unary main_call3.call0.v7 main_call3.call0.v8 Host.negf,
    TRef.unary main_call3.call0.v8 main_call3.call0.v9 Host.exp,
    TRef.unary main_call3.call0.v9 main_call3.call0.v10 Host.log1p,
    TRef.binary main_call3.call0.v1 main_call3.call0.v10 main_call3.call0.v11 addf,
    TRef.ternary main_call3.call0.v4 main_call3.call0.v6 main_call3.call0.v11 main_call3.call0.v12 select,
    TRef.unary main_call3.call0.v12 main_call3.v2 Host.negf ]

/-- The buffers stretch 4 writes. -/
abbrev W4 : List (Ref sig .tc) :=
  [main_v19, main_v20, main_call3_v0, main_call3_call0_cst, main_call3_call0_v0, main_call3_call0_v1, main_call3_call0_v2, main_call3_call0_v3, main_call3_call0_v4, main_call3_call0_v5, main_call3_call0_v6, main_call3_call0_v7, main_call3_call0_v8, main_call3_call0_v9, main_call3_call0_v10, main_call3_call0_v11, main_call3_v1, main_v21]

theorem st4_writes : (st4 : List (HloOp τ sig (Elt F))).Forall fun op => op.writes ⊆ (W4.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- Stretch 4 leaves alone every buffer it does not write. -/
theorem st4_frame (V : Valuation τ sig (Elt F)) {r : Ref sig .tc} (hr : r ∉ W4) :
    after st4 V (Proc.devRef .tc r) = V (Proc.devRef .tc r) :=
  after_of_writes_sub st4 V st4_writes hr

theorem ops_split : (ops : List (HloOp τ sig (Elt F))) = st1 ++ (st2 ++ (st3 ++ st4)) := rfl

/-! ## What each stretch leaves in the buffer the next one reads

Read at `Ideal`. The fold is unrolled and each operation's result decides, by computation on the literal
references, whether the buffer read is the one it writes; the array operations themselves are kept folded
meanwhile, since the equation never looks inside them. -/

attribute [local irreducible] concatenate transpose broadcastInDim Host.negf Host.absf Host.exp Host.log1p addf subf maximumf select cmpf constant in
set_option maxRecDepth 8192 in
set_option maxHeartbeats 1600000 in
/-- The first layer: log σ of the affine map of the node features. -/
theorem st1_v5 (V : Valuation τ sig (Elt Ideal)) :
    after (st1 (F := Ideal)) V (main_v5 : DevRef τ sig)
      = RefTerm.lsV (addf (Host.dotGeneral (φ₁ := .f32) (φ₂ := .f32) dot_S32768x128_S128x128_S32768x128_1_0_0_1_n_n none (V (main_arg0 : DevRef τ sig)) (transpose (α := Ideal .f32) S128x128 [1, 0] (V (main_arg4 : DevRef τ sig)) transposes_S128x128_S128x128_1_0))
          (RefTerm.biasV (V (main_arg5 : DevRef τ sig)))) := by
  simp only [after_cons, after_nil]
  rfl

attribute [local irreducible] concatenate transpose broadcastInDim Host.negf Host.absf Host.exp Host.log1p addf subf maximumf select cmpf constant in
set_option maxRecDepth 8192 in
set_option maxHeartbeats 1600000 in
/-- The second layer: log σ of the linear map of the first layer's output. -/
theorem st2_v8 (V : Valuation τ sig (Elt Ideal)) :
    after (st2 (F := Ideal)) V (main_v8 : DevRef τ sig)
      = RefTerm.lsV (Host.dotGeneral (φ₁ := .f32) (φ₂ := .f32) dot_S32768x128_S128x128_S32768x128_1_0_0_1_n_n none (V (main_v5 : DevRef τ sig)) (transpose (α := Ideal .f32) S128x128 [1, 0] (V (main_arg6 : DevRef τ sig)) transposes_S128x128_S128x128_1_0)) := by
  simp only [after_cons, after_nil]
  rfl

attribute [local irreducible] concatenate transpose broadcastInDim Host.negf Host.absf Host.exp Host.log1p addf subf maximumf select cmpf constant in
set_option maxRecDepth 8192 in
set_option maxHeartbeats 1600000 in
/-- The neighbour sums with the edge's own message removed, joined to the edge features, through the
    aggregation perceptron's first layer. -/
theorem st3_v18 (V : Valuation τ sig (Elt Ideal)) :
    after (st3 (F := Ideal)) V (main_v18 : DevRef τ sig)
      = RefTerm.lsV (addf (Host.dotGeneral (φ₁ := .f32) (φ₂ := .f32) dot_S32768x160_S160x128_S32768x128_1_0_0_1_n_n none
          (concatenate (α := Ideal .f32) S32768x160 1 [⟨S32768x128, RefTerm.nbrV (V (main_arg2 : DevRef τ sig)) (V (main_arg3 : DevRef τ sig)) (V (main_v8 : DevRef τ sig))⟩, ⟨S32768x32, (V (main_arg1 : DevRef τ sig))⟩]
            concatenates_S32768x128_S32768x32_S32768x160_d1)
          (transpose (α := Ideal .f32) S160x128 [1, 0] (V (main_arg7 : DevRef τ sig)) transposes_S128x160_S160x128_1_0))
          (RefTerm.biasV (V (main_arg8 : DevRef τ sig)))) := by
  simp only [after_cons, after_nil]
  rfl

attribute [local irreducible] concatenate transpose broadcastInDim Host.negf Host.absf Host.exp Host.log1p addf subf maximumf select cmpf constant in
set_option maxRecDepth 8192 in
set_option maxHeartbeats 1600000 in
/-- The aggregation perceptron's second layer. -/
theorem st4_v21 (V : Valuation τ sig (Elt Ideal)) :
    after (st4 (F := Ideal)) V (main_v21 : DevRef τ sig)
      = RefTerm.lsV (Host.dotGeneral (φ₁ := .f32) (φ₂ := .f32) dot_S32768x128_S128x128_S32768x128_1_0_0_1_n_n none (V (main_v18 : DevRef τ sig)) (transpose (α := Ideal .f32) S128x128 [1, 0] (V (main_arg9 : DevRef τ sig)) transposes_S128x128_S128x128_1_0)) := by
  simp only [after_cons, after_nil]
  rfl

/-! ## The whole fold -/

/-- A buffer none of the four stretches writes is as it was after all eighty-two operations. -/
theorem ops_frame (V : Valuation τ sig (Elt F)) {r : Ref sig .tc} (h1 : r ∉ W1) (h2 : r ∉ W2) (h3 : r ∉ W3) (h4 : r ∉ W4) :
    after ops V (Proc.devRef .tc r) = V (Proc.devRef .tc r) := by
  rw [ops_split, after_append, after_append, after_append, st4_frame _ h4, st3_frame _ h3, st2_frame _ h2, st1_frame _ h1]

/-- The result buffer after the eighty-two operations holds the reference's term of the ten arguments: the
    four stretches chained, each reading the one buffer its predecessor left and arguments nobody wrote. -/
theorem result_eq (V : Valuation τ sig (Elt Ideal)) :
    after (ops (F := Ideal)) V (main_v21 : DevRef τ sig)
      = RefTerm.term (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  rw [ops_split, after_append, after_append, after_append, st4_v21, st3_v18, st2_v8, st1_v5]
  rw [st3_frame _ (r := main_arg9) (by decide), st2_frame _ (r := main_arg9) (by decide), st1_frame _ (r := main_arg9) (by decide),
    st2_frame _ (r := main_arg1) (by decide), st1_frame _ (r := main_arg1) (by decide),
    st2_frame _ (r := main_arg2) (by decide), st1_frame _ (r := main_arg2) (by decide),
    st2_frame _ (r := main_arg3) (by decide), st1_frame _ (r := main_arg3) (by decide),
    st2_frame _ (r := main_arg7) (by decide), st1_frame _ (r := main_arg7) (by decide),
    st2_frame _ (r := main_arg8) (by decide), st1_frame _ (r := main_arg8) (by decide),
    st1_frame _ (r := main_arg6) (by decide)]
  rfl

/-- From any memory with zero counters every weakly fair execution of @main terminates with the result buffer
    at the reference's term of the ten argument arrays, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v21)
        = RefTerm.term (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c main_v21).trans (result_eq _),
      (h c main_arg0).trans (ops_frame _ (by decide) (by decide) (by decide) (by decide)),
      (h c main_arg1).trans (ops_frame _ (by decide) (by decide) (by decide) (by decide)),
      (h c main_arg2).trans (ops_frame _ (by decide) (by decide) (by decide) (by decide)),
      (h c main_arg3).trans (ops_frame _ (by decide) (by decide) (by decide) (by decide)),
      (h c main_arg4).trans (ops_frame _ (by decide) (by decide) (by decide) (by decide)),
      (h c main_arg5).trans (ops_frame _ (by decide) (by decide) (by decide) (by decide)),
      (h c main_arg6).trans (ops_frame _ (by decide) (by decide) (by decide) (by decide)),
      (h c main_arg7).trans (ops_frame _ (by decide) (by decide) (by decide) (by decide)),
      (h c main_arg8).trans (ops_frame _ (by decide) (by decide) (by decide) (by decide)),
      (h c main_arg9).trans (ops_frame _ (by decide) (by decide) (by decide) (by decide))⟩)
    (run_main m ρ)

end Cert.ReferenceIdeal.RefRun

end
-- ==== Proof.LibConcatColumns.lean ====
/-
  Two rank-2 arrays with the same number of rows, joined along the columns, read at an entry.
-/
import Idealize.ShloMosaic.Lib.Pipeline.Value
import Idealize.ShloMosaic.Lib.ValueIdx

noncomputable section

namespace Cert.Lib

open Idealize.ShloMosaic Idealize.ShloMosaic.ValueIdx

/-- An `[a, b₁]` array and an `[a, b₂]` array concatenated along axis 1 into an `[a, n]` array (`n = b₁ + b₂`), read
    at row `p` and column `j`: the first array at `(p, j)` when `j < b₁`, otherwise the second at `(p, j - b₁)`. -/
theorem concat_columns_apply {α : Type} {a b₁ b₂ n : ℕ} (x₁ : (⟨2, ![a, b₁]⟩ : Shape).Idx → α)
    (x₂ : (⟨2, ![a, b₂]⟩ : Shape).Idx → α)
    (h : Shape.Concatenates [(⟨2, ![a, b₁]⟩ : Shape), (⟨2, ![a, b₂]⟩ : Shape)] (⟨2, ![a, n]⟩ : Shape) 1) (hn : n = b₁ + b₂)
    (p : Fin a) (j : Fin n) :
    concatenate (⟨2, ![a, n]⟩ : Shape) 1 [⟨(⟨2, ![a, b₁]⟩ : Shape), x₁⟩, ⟨(⟨2, ![a, b₂]⟩ : Shape), x₂⟩] h (ix2 p j)
      = if hj : j.val < b₁ then x₁ (ix2 p (⟨j.val, hj⟩ : Fin b₁))
        else x₂ (ix2 p (⟨j.val - b₁, by have := j.isLt; omega⟩ : Fin b₂)) := by
  split
  · next hj =>
    exact concatenate_pair_apply_left 1 x₁ x₂ h (ix2 p j) rfl (ix2 p (⟨j.val, hj⟩ : Fin b₁))
      (fun b => by match b with | ⟨0, _⟩ => rfl | ⟨1, _⟩ => rfl)
  · next hj =>
    exact concatenate_pair_apply_right 1 x₁ x₂ h (ix2 p j) rfl rfl
      (ix2 p (⟨j.val - b₁, by have := j.isLt; omega⟩ : Fin b₂))
      (fun b hb => by
        match b with
        | ⟨0, _⟩ => rfl
        | ⟨1, _⟩ => exact absurd rfl hb)
      (by show j.val - b₁ + b₁ = j.val; omega)

end Cert.Lib

end
-- ==== Proof.RefValue.lean ====
/-
  The reference's result, read entry by entry, is the specification.

  Each host operation of the reference's term is read at an index: a pointwise operation reads its operands at the same
  index, a broadcast scalar is the scalar, a spread bias reads the vector at the column, a transposed matrix reads the
  operand at the swapped index, a plain matrix product is the sum over the contracted coordinate, and a product against
  two arrays joined along the columns splits into the sum over the first array's columns plus the sum over the second's.
  The logarithm of the logistic function, written as minus a guarded softplus of the negated operand, is the
  specification's ls at every entry, because the guard "d ≠ d" is false on the extended reals. Composing these readings
  in program order gives the specification's msg, node, nbr, hid2 and out. Nothing here needs a finite value: only that
  both sides are the same sums of the same products, term by term.
-/
import proofs.«111909_j6468220748479_2_alg».proof.Proof.Spec
import proofs.«111909_j6468220748479_2_alg».proof.Proof.RefTerm
import proofs.«111909_j6468220748479_2_alg».proof.Proof.LibPlainMatmul
import proofs.«111909_j6468220748479_2_alg».proof.Proof.LibConcatColumns
import proofs.«111909_j6468220748479_2_alg».proof.Proof.LibBroadcasts
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Facts₀
  Cert.ReferenceIdeal.RefTerm
open scoped BigOperators

variable [Facts]

/-! ## The logarithm of the logistic function and the bias, at an entry -/

/-- The array every softplus compares against is zero everywhere. -/
theorem zeros_apply (i : S32768x128.Idx) : zeros i = 0 := by
  unfold zeros
  rw [Cert.LibBroadcasts.scalar_apply, constant_apply, Ideal.ofBits_zero_f32]

/-- Minus the guarded softplus of the negated operand is, at every index, the specification's ls of the entry. -/
theorem lsV_apply (x : FVec Ideal S32768x128 .f32) (i : S32768x128.Idx) : lsV x i = Cert.Spec.ls (x i) := by
  rw [← Cert.Spec.ls_neg]
  show -(Scalar.select (Ideal.cmp .une (-(x i) - zeros i) (-(x i) - zeros i)) (-(x i) + zeros i)
      (max (-(x i)) (zeros i) + Ideal.log1p (Ideal.exp (-(max (-(x i) - zeros i) (-(-(x i) - zeros i))))))) = _
  rw [zeros_apply]
  rfl

/-- A bias vector spread over the rows reads, at (p, c), the vector at c. -/
theorem biasV_apply (b : FVec Ideal S128 .f32) (p : Fin 32768) (c : Fin 128) : biasV b (ix2 p c) = b (ix1 c) := by
  unfold biasV
  rw [Cert.LibBroadcasts.rows_apply, Cert.LibBroadcasts.row_apply]

/-! ## The four matrix products and the two transposes, at an entry -/

/-- Each of the program's dimension-number records is the plain "[M, K] by [K, N]" one. -/
theorem dot1_eq : dot_S32768x128_S128x128_S32768x128_1_0_0_1_n_n = DotDims.plain 32768 128 128 := rfl
theorem dot2_eq : dot_S2048x32768_S32768x128_S2048x128_1_0_0_1_n_n = DotDims.plain 2048 32768 128 := rfl
theorem dot3_eq : dot_S32768x2048_S2048x128_S32768x128_1_0_0_1_n_n = DotDims.plain 32768 2048 128 := rfl
theorem dot4_eq : dot_S32768x160_S160x128_S32768x128_1_0_0_1_n_n = DotDims.plain 32768 160 128 := rfl

/-- [32768, 128] by [128, 128], at (p, c): the sum over the 128 contracted positions. -/
theorem dot1_apply (W : FVec Ideal S32768x128 .f32) (X : FVec Ideal S128x128 .f32) (p : Fin 32768) (c : Fin 128) :
    Host.dotGeneral dot_S32768x128_S128x128_S32768x128_1_0_0_1_n_n none W X (ix2 p c)
      = ∑ k : Fin 128, W (ix2 p k) * X (ix2 k c) := by
  rw [dot1_eq]; exact Cert.LibPlainMatmul.dotGeneral_apply 32768 128 128 none W X p c

/-- [2048, 32768] by [32768, 128], at (p, c): the sum over the 32768 contracted positions. -/
theorem dot2_apply (W : FVec Ideal S2048x32768 .f32) (X : FVec Ideal S32768x128 .f32) (p : Fin 2048) (c : Fin 128) :
    Host.dotGeneral dot_S2048x32768_S32768x128_S2048x128_1_0_0_1_n_n none W X (ix2 p c)
      = ∑ k : Fin 32768, W (ix2 p k) * X (ix2 k c) := by
  rw [dot2_eq]; exact Cert.LibPlainMatmul.dotGeneral_apply 2048 32768 128 none W X p c

/-- [32768, 2048] by [2048, 128], at (p, c): the sum over the 2048 contracted positions. -/
theorem dot3_apply (W : FVec Ideal S32768x2048 .f32) (X : FVec Ideal S2048x128 .f32) (p : Fin 32768) (c : Fin 128) :
    Host.dotGeneral dot_S32768x2048_S2048x128_S32768x128_1_0_0_1_n_n none W X (ix2 p c)
      = ∑ k : Fin 2048, W (ix2 p k) * X (ix2 k c) := by
  rw [dot3_eq]; exact Cert.LibPlainMatmul.dotGeneral_apply 32768 2048 128 none W X p c

/-- [32768, 160] by [160, 128], at (p, c): the sum over the 160 contracted positions. -/
theorem dot4_apply (W : FVec Ideal S32768x160 .f32) (X : FVec Ideal S160x128 .f32) (p : Fin 32768) (c : Fin 128) :
    Host.dotGeneral dot_S32768x160_S160x128_S32768x128_1_0_0_1_n_n none W X (ix2 p c)
      = ∑ k : Fin 160, W (ix2 p k) * X (ix2 k c) := by
  rw [dot4_eq]; exact Cert.LibPlainMatmul.dotGeneral_apply 32768 160 128 none W X p c

/-- A transposed [128, 128] matrix reads, at (j, i), the operand at (i, j). -/
theorem tr128_apply (a : FVec Ideal S128x128 .f32) (j i : Fin 128) :
    transpose S128x128 [1, 0] a transposes_S128x128_S128x128_1_0 (ix2 j i) = a (ix2 i j) :=
  transpose_ix2_apply a transposes_S128x128_S128x128_1_0 j i

/-- A transposed [128, 160] matrix reads, at (j, i), the operand at (i, j). -/
theorem tr160_apply (a : FVec Ideal S128x160 .f32) (j : Fin 160) (i : Fin 128) :
    transpose S160x128 [1, 0] a transposes_S128x160_S160x128_1_0 (ix2 j i) = a (ix2 i j) :=
  transpose_ix2_apply a transposes_S128x160_S160x128_1_0 j i

/-! ## The edge messages -/

/-- The message perceptron at an entry: ls of the second layer's sum, each hidden unit ls of the first layer's sum plus
    its bias, both weight matrices read transposed. -/
theorem msgV_apply (a0 : FVec Ideal S32768x128 .f32) (a4 : FVec Ideal S128x128 .f32) (a5 : FVec Ideal S128 .f32)
    (a6 : FVec Ideal S128x128 .f32) (e : Fin 32768) (c : Fin 128) :
    msgV a0 a4 a5 a6 (ix2 e c) = Cert.Spec.msg a0 a4 a5 a6 e c := by
  unfold msgV Cert.Spec.msg
  rw [lsV_apply, dot1_apply]
  refine congrArg Cert.Spec.ls (Finset.sum_congr rfl fun k _ => ?_)
  rw [lsV_apply, addf_apply, dot1_apply, biasV_apply, tr128_apply]
  unfold Cert.Spec.hid
  refine congrArg (fun t => Cert.Spec.ls (t + a5 (ix1 k)) * a6 (ix2 c k)) (Finset.sum_congr rfl fun j _ => ?_)
  rw [tr128_apply]

/-- The same as arrays. -/
theorem msgV_eq (a0 : FVec Ideal S32768x128 .f32) (a4 : FVec Ideal S128x128 .f32) (a5 : FVec Ideal S128 .f32)
    (a6 : FVec Ideal S128x128 .f32) : msgV a0 a4 a5 a6 = Cert.Spec.msgArr a0 a4 a5 a6 := by
  funext i
  exact (congrArg (msgV a0 a4 a5 a6) (eq_ix2 i)).trans (msgV_apply a0 a4 a5 a6 (i 0) (i 1))

/-! ## What each edge receives -/

/-- Gathered at the nodes, scattered back to the edges, the edge's own entry removed: at (e, c), for any array s. -/
theorem nbrV_apply (a2 : FVec Ideal S2048x32768 .f32) (a3 : FVec Ideal S32768x2048 .f32) (s : FVec Ideal S32768x128 .f32)
    (e : Fin 32768) (c : Fin 128) :
    nbrV a2 a3 s (ix2 e c)
      = (∑ n : Fin 2048, a3 (ix2 e n) * ∑ e' : Fin 32768, a2 (ix2 n e') * s (ix2 e' c)) - s (ix2 e c) := by
  unfold nbrV
  rw [subf_apply, dot3_apply]
  refine congrArg (fun t => t - s (ix2 e c)) (Finset.sum_congr rfl fun n _ => ?_)
  rw [dot2_apply]

/-- Of the messages, it is the specification's nbr. -/
theorem nbr_eq (a0 : FVec Ideal S32768x128 .f32) (a2 : FVec Ideal S2048x32768 .f32) (a3 : FVec Ideal S32768x2048 .f32)
    (a4 : FVec Ideal S128x128 .f32) (a5 : FVec Ideal S128 .f32) (a6 : FVec Ideal S128x128 .f32)
    (e : Fin 32768) (c : Fin 128) :
    nbrV a2 a3 (msgV a0 a4 a5 a6) (ix2 e c) = Cert.Spec.nbr a0 a2 a3 a4 a5 a6 e c := by
  rw [nbrV_apply, msgV_apply]
  unfold Cert.Spec.nbr Cert.Spec.node
  refine congrArg (fun t => t - Cert.Spec.msg a0 a4 a5 a6 e c) (Finset.sum_congr rfl fun n _ => ?_)
  refine congrArg (fun t => a3 (ix2 e n) * t) (Finset.sum_congr rfl fun e' _ => ?_)
  rw [msgV_apply]

/-! ## The aggregation perceptron: a product against two arrays joined along the columns -/

/-- A sum over 160 columns is the sum over the first 128 plus the sum over the last 32. -/
theorem sum160 (f : Fin 160 → EReal) :
    ∑ j : Fin 160, f j
      = (∑ j : Fin 128, f (⟨j.val, by have := j.isLt; omega⟩ : Fin 160))
        + ∑ j : Fin 32, f (⟨128 + j.val, by have := j.isLt; omega⟩ : Fin 160) :=
  Fin.sum_univ_add (a := 128) (b := 32) f

/-- The joined array's column j < 128 is the first array's column j … -/
theorem concat_left (g : FVec Ideal S32768x128 .f32) (a1 : FVec Ideal S32768x32 .f32) (e : Fin 32768) (j : Fin 128) :
    concatenate S32768x160 1 [⟨S32768x128, g⟩, ⟨S32768x32, a1⟩] concatenates_S32768x128_S32768x32_S32768x160_d1
        (ix2 e (⟨j.val, by have := j.isLt; omega⟩ : Fin 160)) = g (ix2 e j) := by
  refine (Cert.Lib.concat_columns_apply g a1 concatenates_S32768x128_S32768x32_S32768x160_d1 rfl e
    (⟨j.val, by have := j.isLt; omega⟩ : Fin 160)).trans ?_
  rw [dif_pos (show j.val < 128 from j.isLt)]

/-- … and its column 128 + j is the second array's column j. -/
theorem concat_right (g : FVec Ideal S32768x128 .f32) (a1 : FVec Ideal S32768x32 .f32) (e : Fin 32768) (j : Fin 32) :
    concatenate S32768x160 1 [⟨S32768x128, g⟩, ⟨S32768x32, a1⟩] concatenates_S32768x128_S32768x32_S32768x160_d1
        (ix2 e (⟨128 + j.val, by have := j.isLt; omega⟩ : Fin 160)) = a1 (ix2 e j) := by
  refine (Cert.Lib.concat_columns_apply g a1 concatenates_S32768x128_S32768x32_S32768x160_d1 rfl e
    (⟨128 + j.val, by have := j.isLt; omega⟩ : Fin 160)).trans ?_
  rw [dif_neg (show ¬ (128 + j.val < 128) by omega)]
  exact congrArg (fun t => a1 (ix2 e t)) (Fin.ext (by show 128 + j.val - 128 = j.val; omega))

/-- The aggregation perceptron at an entry, for any received array g: the hidden unit's sum over the joined 160 columns
    is g against the first 128 columns of the weights plus the features against the last 32. -/
theorem outV_apply (g : FVec Ideal S32768x128 .f32) (a1 : FVec Ideal S32768x32 .f32) (a7 : FVec Ideal S128x160 .f32)
    (a8 : FVec Ideal S128 .f32) (a9 : FVec Ideal S128x128 .f32) (e : Fin 32768) (c : Fin 128) :
    outV g a1 a7 a8 a9 (ix2 e c)
      = Cert.Spec.ls (∑ k : Fin 128, Cert.Spec.ls
          (((∑ j : Fin 128, g (ix2 e j) * a7 (ix2 k (⟨j.val, by have := j.isLt; omega⟩ : Fin 160)))
            + ∑ j : Fin 32, a1 (ix2 e j) * a7 (ix2 k (⟨128 + j.val, by have := j.isLt; omega⟩ : Fin 160)))
           + a8 (ix1 k)) * a9 (ix2 c k)) := by
  unfold outV
  rw [lsV_apply, dot1_apply]
  refine congrArg Cert.Spec.ls (Finset.sum_congr rfl fun k _ => ?_)
  rw [lsV_apply, addf_apply, dot4_apply, biasV_apply, tr128_apply, sum160]
  refine congrArg (fun t => Cert.Spec.ls (t + a8 (ix1 k)) * a9 (ix2 c k)) ?_
  refine congrArg₂ (· + ·) (Finset.sum_congr rfl fun j _ => ?_) (Finset.sum_congr rfl fun j _ => ?_)
  · rw [tr160_apply, concat_left]
  · rw [tr160_apply, concat_right]

/-! ## The reference's result -/

/-- The reference's result at (e, c) is the specification's out. -/
theorem term_apply (a0 : FVec Ideal S32768x128 .f32) (a1 : FVec Ideal S32768x32 .f32) (a2 : FVec Ideal S2048x32768 .f32)
    (a3 : FVec Ideal S32768x2048 .f32) (a4 : FVec Ideal S128x128 .f32) (a5 : FVec Ideal S128 .f32)
    (a6 : FVec Ideal S128x128 .f32) (a7 : FVec Ideal S128x160 .f32) (a8 : FVec Ideal S128 .f32)
    (a9 : FVec Ideal S128x128 .f32) (e : Fin 32768) (c : Fin 128) :
    term a0 a1 a2 a3 a4 a5 a6 a7 a8 a9 (ix2 e c) = Cert.Spec.out a0 a1 a2 a3 a4 a5 a6 a7 a8 a9 e c := by
  unfold term
  rw [outV_apply]
  unfold Cert.Spec.out Cert.Spec.hid2
  refine congrArg Cert.Spec.ls (Finset.sum_congr rfl fun k _ => ?_)
  refine congrArg (fun t => Cert.Spec.ls ((t
      + ∑ j : Fin 32, a1 (ix2 e j) * a7 (ix2 k (⟨128 + j.val, by have := j.isLt; omega⟩ : Fin 160))) + a8 (ix1 k))
      * a9 (ix2 c k)) (Finset.sum_congr rfl fun j _ => ?_)
  rw [nbr_eq]

/-- The reference's result is the specification's output array. -/
theorem term_eq (a0 : FVec Ideal S32768x128 .f32) (a1 : FVec Ideal S32768x32 .f32) (a2 : FVec Ideal S2048x32768 .f32)
    (a3 : FVec Ideal S32768x2048 .f32) (a4 : FVec Ideal S128x128 .f32) (a5 : FVec Ideal S128 .f32)
    (a6 : FVec Ideal S128x128 .f32) (a7 : FVec Ideal S128x160 .f32) (a8 : FVec Ideal S128 .f32)
    (a9 : FVec Ideal S128x128 .f32) :
    term a0 a1 a2 a3 a4 a5 a6 a7 a8 a9 = Cert.Spec.outArr a0 a1 a2 a3 a4 a5 a6 a7 a8 a9 := by
  funext i
  exact (congrArg (term a0 a1 a2 a3 a4 a5 a6 a7 a8 a9) (eq_ix2 i)).trans
    (term_apply a0 a1 a2 a3 a4 a5 a6 a7 a8 a9 (i 0) (i 1))

end Cert.ReferenceIdeal.RefValue

end
-- ==== Proof.lean ====
/-
  One message-passing layer on a bipartite graph (32768 edges, 2048 nodes; Proof/Spec.lean):

      msg = ls ∘ (ls ∘ (state · W1mᵀ + b1m) · W2mᵀ),   node = mask · msg,   nbr = maskT · node − msg,
      out = ls ∘ (ls ∘ ([nbr | feat] · W1aᵀ + b1a) · W2aᵀ),        ls = log ∘ logistic.

  The kernel program computes it in three launches — the messages in blocks of 2048 edges; the node sums, accumulated
  over 32 tiles of 1024 edges for each of 2 blocks of 1024 nodes; the output in blocks of 1024 edges, the product with
  W1aᵀ split into its first 128 and last 32 columns instead of joining nbr and feat — and the reference in one straight
  line of host operations. On the extended reals a change of float format is the identity, a matrix product is the
  plain sum of products whatever its tiling, and both spellings of ls (negation as 0 − x or as −x, behind a guard
  "d ≠ d" that never fires) are one function. So both programs end with the same array, entry by entry; only
  reindexing of finite sums and commutativity and associativity of + are used, and finiteness of the inputs never.

  frame_Kernel, frame_KernelIdeal: the generated frames. frame_ReferenceIdeal: the reference's run (Proof/RefRun.lean)
  with its result forgotten. preserves: the idealization rewrote nothing. algebraic: the kernel's run with its result
  named (Proof/KRun.lean) and read launch by launch (Proof/K0.lean, K1.lean, K2.lean, K2Host.lean, KMid.lean,
  KValue.lean over the launch bodies in Proof/KBody0.lean, KBody1.lean, KBody2.lean), the reference's run read index by
  index (Proof/RefTerm.lean, RefValue.lean), both at Spec.outArr of the launched arrays.
-/
import proofs.«111909_j6468220748479_2_alg».proof.Defs
import proofs.«111909_j6468220748479_2_alg».proof.Proof.Gen.Kernel
import proofs.«111909_j6468220748479_2_alg».proof.Proof.Gen.Kernel.Skeleton
import proofs.«111909_j6468220748479_2_alg».proof.Proof.Gen.Kernel.Launch
import proofs.«111909_j6468220748479_2_alg».proof.Proof.Gen.Kernel.Points
import proofs.«111909_j6468220748479_2_alg».proof.Proof.Gen.Kernel.Frame
import proofs.«111909_j6468220748479_2_alg».proof.Proof.Gen.KernelIdeal
import proofs.«111909_j6468220748479_2_alg».proof.Proof.Gen.KernelIdeal.Skeleton
import proofs.«111909_j6468220748479_2_alg».proof.Proof.Gen.KernelIdeal.Launch
import proofs.«111909_j6468220748479_2_alg».proof.Proof.Gen.KernelIdeal.Points
import proofs.«111909_j6468220748479_2_alg».proof.Proof.Gen.KernelIdeal.Frame
import proofs.«111909_j6468220748479_2_alg».proof.Proof.Gen.ReferenceIdeal
import proofs.«111909_j6468220748479_2_alg».proof.Proof.Gen.Pre_finite_inputs
import proofs.«111909_j6468220748479_2_alg».proof.Proof.KRun
import proofs.«111909_j6468220748479_2_alg».proof.Proof.KValue
import proofs.«111909_j6468220748479_2_alg».proof.Proof.RefRun
import proofs.«111909_j6468220748479_2_alg».proof.Proof.RefValue
import Idealize.ShloMosaic.Adequacy
import Idealize.ShloMosaic.Init

noncomputable section

namespace Cert.Proof

open Idealize.ShloMosaic Idealize.SL.Sem

/-- The layer's output of the arrays the kernel program is launched with, on each device. -/
def result (m : (ℓ : Loc Cert.KernelIdeal.nD Cert.KernelIdeal.τ Cert.KernelIdeal.sig) → Buf (Elt Ideal) ℓ)
    (c : Dev Cert.KernelIdeal.nD) :
    Buf (Elt Ideal) ((c.tc : Thread Cert.KernelIdeal.nD Cert.KernelIdeal.τ).loc Cert.KernelIdeal.main_v11) :=
  Cert.Spec.outArr
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.RefRun.run m ρ),
  trivial,
  fun m ρ m' ρ' _ hagree => ⟨result m,
    (θ_run Cert.KernelIdeal.defs _ _).mono
      (fun _ h c => ⟨(h c).1.trans (Cert.KernelIdeal.KValue.value m ρ c), (h c).2⟩) (Cert.KernelIdeal.KRun.run (F := Ideal) m ρ),
    (θ_run Cert.ReferenceIdeal.defs _ _).mono
      (fun _ h c => ⟨by
          obtain ⟨e0, e1, e2, e3, e4, e5, e6, e7, e8, e9⟩ := hagree c
          rw [(h c).1, Cert.ReferenceIdeal.RefValue.term_eq, e0, e1, e2, e3, e4, e5, e6, e7, e8, e9]
          rfl, (h c).2⟩)
      (Cert.ReferenceIdeal.RefRun.run m' ρ')⟩⟩

end Cert.Proof

end
